-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S5000x128 : Shape := ⟨2, ![5000, 128]⟩
abbrev S50000x1 : Shape := ⟨2, ![50000, 1]⟩
abbrev S800000x128 : Shape := ⟨2, ![800000, 128]⟩

abbrev nBuf : Space → Nat
  | .hbm => 110
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S128x128, .bf16⟩
  | .hbm, ⟨23, _⟩ => ⟨S128x128, .bf16⟩
  | .hbm, ⟨24, _⟩ => ⟨S128x128, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S50000x128, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x128, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .bf16⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .bf16⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S50000x128, .bf16⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .bf16⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .bf16⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_4 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_7 : Ref sig .tc := ⟨.hbm, 87, rfl⟩
abbrev main_v70 : Ref sig .tc := ⟨.hbm, 88, rfl⟩
abbrev main_v71 : Ref sig .tc := ⟨.hbm, 89, rfl⟩
abbrev main_c_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v88) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x1, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefSpec.lean ====
/-
  The reference program's result as a composition of named stages.

  From the edge list `e` (row 0 the sources, row 1 the targets, 800000 edges) the reference forms the list of
  850000 = 800000 + 50000 pairs "edges, then one self-loop per node", counts each node's incoming pairs (its
  degree, self-loop included), takes `dis = deg^(-1/2)`, weights pair `k` by `dis[src k] · dis[tgt k]`, and each
  layer is: multiply the node matrix by the weights matrix, gather the source rows, weight them pair by pair,
  accumulate them at the target rows, add the bias row; a rectifier sits between the layers.
-/
import proofs.«140754_j23845658428197_2_alg».proof.Proof.RefRun
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The targets of the 850000 pairs: the edge list's row 1, then the nodes `0 … 49999`. -/
def tgtR (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The sources of the 850000 pairs: the edge list's row 0, then the nodes `0 … 49999`. -/
def srcR (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- A negative node number counts from the end: `v < 0 ↦ v + 50000`. -/
def wrapR (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- A list as a column. -/
def colR {α : Type} (v : S850000.Idx → α) : S850000x1.Idx → α :=
  broadcastInDim S850000x1 ![0] bcast_S850000_S850000x1_0 v

/-- Each node's number of incoming pairs. -/
def degR (e : IVec S2x800000 32) : FVec Ideal S50000 .f32 :=
  Host.scatterAdd scatter_S50000_S850000x1_S850000_n_0_0_1 (broadcastInDim S50000 ![] bcast_S_S50000 (constant S_ .f32 0x00000000#32)) (colR (tgtR e)) (broadcastInDim S850000 ![] bcast_S_S850000 (constant S_ .f32 0x3F800000#32))

/-- The normalisation weights: `deg^(-1/2)` where the degree is positive, else zero. -/
def disR (e : IVec S2x800000 32) : FVec Ideal S50000 .f32 :=
  select (cmpf (F := Ideal) .ogt (degR e) (broadcastInDim S50000 ![] bcast_S_S50000 (constant S_ .f32 0x00000000#32))) (Host.rsqrt (maximumf (degR e) (broadcastInDim S50000 ![] bcast_S_S50000 (constant S_ .f32 0x3F800000#32)))) (broadcastInDim S50000 ![] bcast_S_S50000 (id (constant S_ .f32 0x00000000#32)))

/-- Pair `k`'s weight `dis[src k] · dis[tgt k]`. -/
def normR (e : IVec S2x800000 32) : FVec Ideal S850000 .f32 :=
  mulf (Host.gather gather_S50000_S850000x1_S850000_n_0_n_n_0_1_1 (disR e) (colR (wrapR (srcR e)))) (Host.gather gather_S50000_S850000x1_S850000_n_0_n_n_0_1_1 (disR e) (colR (wrapR (tgtR e))))

/-- The neighbourhood sum of a node matrix `h`: source rows gathered, weighted pair by pair, accumulated at the targets. -/
def aggR (e : IVec S2x800000 32) (h : FVec Ideal S50000x128 .f32) : FVec Ideal S50000x128 .f32 :=
  Host.scatterAdd scatter_S50000x128_S850000x1_S850000x128_1_0_0_1 (broadcastInDim S50000x128 ![] bcast_S_S50000x128 (constant S_ .f32 0x00000000#32)) (colR (tgtR e)) (mulf (Host.gather gather_S50000x128_S850000x1_S850000x128_1_0_n_n_0_1_1128 h (colR (wrapR (srcR e)))) (broadcastInDim S850000x128 ![0, 1] bcast_S850000x1_S850000x128_0_1 (colR (normR e))))

/-- A bias vector as a matrix with equal rows. -/
def biasR (b : FVec Ideal S128 .f32) : FVec Ideal S50000x128 .f32 :=
  broadcastInDim S50000x128 ![0, 1] bcast_S1x128_S50000x128_0_1 (broadcastInDim S1x128 ![1] bcast_S128_S1x128_1 b)

/-- One layer without its rectifier. -/
def layerR (e : IVec S2x800000 32) (x : FVec Ideal S50000x128 .f32) (W : FVec Ideal S128x128 .f32) (b : FVec Ideal S128 .f32) :
    FVec Ideal S50000x128 .f32 :=
  addf (aggR e (Host.dotGeneral dot_S50000x128_S128x128_S50000x128_1_0_0_1_n_n none x W)) (biasR b)

/-- The rectifier. -/
def reluR (y : FVec Ideal S50000x128 .f32) : FVec Ideal S50000x128 .f32 :=
  maximumf y (broadcastInDim S50000x128 ![] bcast_S_S50000x128 (constant S_ .f32 0x00000000#32))

/-- The three layers. -/
def refOut (X : FVec Ideal S50000x128 .f32) (e : IVec S2x800000 32) (W1 : FVec Ideal S128x128 .f32) (b1 : FVec Ideal S128 .f32)
    (W2 : FVec Ideal S128x128 .f32) (b2 : FVec Ideal S128 .f32) (W3 : FVec Ideal S128x128 .f32) (b3 : FVec Ideal S128 .f32) :
    FVec Ideal S50000x128 .f32 :=
  layerR e (reluR (layerR e (reluR (layerR e X W1 b1)) W2 b2)) W3 b3

/-- The reference run's result term is these stages composed. -/
theorem res_eq (m : (ℓ : Loc nD τ sig) → Buf (Elt Ideal) ℓ) (c : Dev nD) :
    Cert.ReferenceIdeal.ValueP.res_main_v84 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := rfl

end Cert.ReferenceIdeal.RefValue

end
-- ==== Proof.KerRun.lean ====
/-
  The idealized kernel program's run, with its result named. The program is four dense stages among stretches
  of host operations; its buffer contents at the segment boundaries form a fold from the launch memory (each
  host stretch applies its operations, each dense stage replaces its arrays by what its write-backs leave).
  Every weakly fair execution terminates without a fault, and in every final state each buffer that outlives
  the stages holds the fold's last contents: in particular the result buffer holds the last stage's output
  array, and the eight argument arrays are as launched.
-/
import proofs.«140754_j23845658428197_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    fold's last contents `W8` (the last stage's output array) and the argument arrays end as launched. -/
theorem run_value : θ_run defs (onTc (τ := τ) (main (F := F))) ⟨m, fun _ => 0, ρ⟩ (fun r => ∀ c : Dev nD,
      r.2.mem ((c.tc : Thread nD τ).loc main_v89) = W8 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v89 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.Spec.lean ====
/-
  The dense stages of a three-layer graph convolution over 50000 nodes and 128 channels, as functions on the
  extended reals, index by index: the product of a node matrix with a square weight matrix (a sum over the 128
  input channels), the addition of a bias row to every node's row, and the rectifier.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns. -/
abbrev Mat (r c : Nat) : Type := (⟨2, ![r, c]⟩ : Shape).Idx → EReal

/-- Entry `(n, q)` of `X · W`: the sum over the input channel `k` of `X[n, k] · W[k, q]`. -/
def mm (X : Mat 50000 128) (W : Mat 128 128) : Mat 50000 128 :=
  fun i => ∑ k : Fin 128, X (ix2 (i 0) k) * W (ix2 k (i 1))

/-- The bias row `b` added to every row of `A`. -/
def addBias (A : Mat 50000 128) (b : Mat 1 128) : Mat 50000 128 :=
  fun i => A i + b (ix2 (0 : Fin 1) (i 1))

/-- The rectifier, entry by entry. -/
def relu (A : Mat 50000 128) : Mat 50000 128 := fun i => max (A i) 0

end Cert.Spec

end
-- ==== Proof.KerRegions.lean ====
/-
  What each of the four dense stages leaves in its output array, for any contents `V` of the buffers when the
  stage is entered. Every stage walks the 50000 node rows in ten blocks of 5000 rows; block `t` of the output is
  computed from block `t` of the node matrix and the whole of the small operands (the weight matrix, the bias
  row), so row `5000·t + p` of the output depends on row `5000·t + p` of the input alone, and the ten blocks
  tile the array. Hence the whole output array is one function of the whole input arrays: the matrix product
  (first stage), the product of the rectified biased input with the weights (second and third), the biased
  input (last).
-/
import proofs.«140754_j23845658428197_2_alg».proof.Proof.Gen.KernelIdeal.Frame
import proofs.«140754_j23845658428197_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-block access, as the constant function. -/
private theorem hz : (![0, 0] : Fin 2 → Nat) = fun _ => 0 := funext fun a => by fin_cases a <;> rfl

/-! ## The block product at an entry -/

/-- The contraction pattern of every stage's product: rows of the left operand against columns of the right. -/
private abbrev DD : DotDims S5000x128 S128x128 S5000x128 := dot_S5000x128_S128x128_S5000x128_1_0_0_1_n_n

private theorem lhsDD_0 (i : S5000x128.Idx) (q : DD.contr.Idx) : (DD.lhsIdx i q 0).val = (i 0).val := by
  unfold DotDims.lhsIdx
  rw [dif_neg (show ¬(0 : Fin S5000x128.rank) ∈ DD.lhsBatch by decide),
    dif_pos (show (0 : Fin S5000x128.rank) ∈ DD.lhsNonContracting by decide)]
  rfl
private theorem lhsDD_1 (i : S5000x128.Idx) (q : DD.contr.Idx) : (DD.lhsIdx i q 1).val = (q ⟨0, by decide⟩).val :=
  DD.lhsIdx_val_of_single rfl i q
private theorem rhsDD_0 (i : S5000x128.Idx) (q : DD.contr.Idx) : (DD.rhsIdx i q 0).val = (q ⟨0, by decide⟩).val :=
  DD.rhsIdx_val_of_single rfl i q
private theorem rhsDD_1 (i : S5000x128.Idx) (q : DD.contr.Idx) : (DD.rhsIdx i q 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- A block of rows times the weight matrix, accumulated into zero, at entry `(p, q)`: the sum over the 128 input
    channels of the products. -/
private theorem matmul_block_apply (a : FVec Ideal S5000x128 .bf16) (w : FVec Ideal S128x128 .bf16) (p : Fin 5000) (q : Fin 128) :
    matmul DD none a w (constant (F := Ideal) S5000x128 .f32 0x00000000#32) (ix2 p q)
      = ∑ k : Fin 128, a (ix2 p k) * w (ix2 k q) := by
  show FloatOps.matmul DD none a w (constant (F := Ideal) S5000x128 .f32 0x00000000#32) (ix2 p q) = _
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhsDD_0 _ _
    | ⟨1, _⟩ => exact (lhsDD_1 _ _).trans hk)
  have er : DD.rhsIdx (ix2 p q) ((contrEquiv1 DD 128 rfl rfl).symm k) = ix2 k q := funext fun a => Fin.ext (by
    match a with
    | ⟨0, _⟩ => exact (rhsDD_0 _ _).trans hk
    | ⟨1, _⟩ => exact rhsDD_1 _ _)
  rw [el, er]

/-! ## The first stage: the node matrix times the weight matrix -/

/-- The first stage's arithmetic at entry `(p, q)` of a block: row `p` of the block against column `q` of the weights. -/
private theorem pay0_apply (x0 : Vec Ideal S5000x128 .f32) (x2 : Vec Ideal S128x128 .bf16) (p : Fin 5000) (q : Fin 128) :
    k0_pay1 x0 x2 (ix2 p q) = ∑ k : Fin 128, x0 (ix2 p k) * x2 (ix2 k q) := by
  unfold k0_pay1
  rw [shapeCast_self]
  exact matmul_block_apply _ _ p q

/-- The same at any index of the block. -/
private theorem pay0_at (x0 : Vec Ideal S5000x128 .f32) (x2 : Vec Ideal S128x128 .bf16) (y : S5000x128.Idx) :
    k0_pay1 x0 x2 y = ∑ k : Fin 128, x0 (ix2 (y 0) k) * x2 (ix2 k (y 1)) := by
  obtain ⟨p, q, rfl⟩ : ∃ (p : Fin 5000) (q : Fin 128), y = ix2 p q := ⟨y 0, y 1, eq_ix2 y⟩
  exact pay0_apply x0 x2 p q

/-- The block indices at point `t`: the node matrix and the output are at row block `t`, the weights at their one block. -/
private theorem idx0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0 :=
  (by decide +kernel : ∀ t : Fin grid0.N, _)

/-- What point `t` writes back is block `t` of the product. -/
private theorem flushed0 (c : Dev nD) (t : Fin cfg0.N) :
    (dat0 (F := Ideal) V c).flushed 2 t
      = ((cfg0.win 2).blk t).view.read (Elt Ideal) (mm (V c main_arg0) (V c main_v11)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  funext j
  refine (pay0_at _ _ j).trans ?_
  have h0 : ∀ k : Fin 128, ((cfg0.win 0).blk t).view.emb (ix2 (j 0 : Fin 5000) k)
      = ix2 ((((cfg0.win 2).blk t).view.emb j) 0 : Fin 50000) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1 : Fin 128))
      = ix2 k ((((cfg0.win 2).blk t).view.emb j) 1 : Fin 128) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have key : ∀ (A : Mat 50000 128) (W : Mat 128 128),
      ∑ k : Fin 128, A (((cfg0.win 0).blk t).view.emb (ix2 (j 0 : Fin 5000) k)) * W (((cfg0.win 1).blk t).view.emb (ix2 k (j 1 : Fin 128)))
        = mm A W (((cfg0.win 2).blk t).view.emb j) := by
    intro A W
    exact Finset.sum_congr rfl fun k _ => congrArg₂ (· * ·) (congrArg A (h0 k)) (congrArg W (h1 k))
  exact key (V c main_arg0) (V c main_v11)

/-- An index of the output array lies in point `t`'s block iff each coordinate lies in the block's range. -/
private theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v17).slice (win0_2.rect t)).set ↔ _
  rw [View.set_slice_whole, Rect.mem_set_unit]
  exact Iff.rfl

/-- Row `r` of the output array lies in the block of point `r / 5000`. -/
private theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; omega
  obtain ⟨e0, e1, e2, e3, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The first stage's output array: the node matrix times the weight matrix. -/
theorem final0 (c : Dev nD) :
    (dat0 (F := Ideal) V c).arrAt 2 cfg0.N = mm (V c main_arg0) (V c main_v11) :=
  (dat0 (F := Ideal) V c).arrAt_eq_of_cover 2 (mm (V c main_arg0) (V c main_v11))
    (fun t _ => flushed0 V c t) cover0

/-! ## The second stage: the rectified biased input times the weight matrix -/

/-- The second stage's arithmetic at entry `(p, q)` of a block: row `p` of the block, the bias row added and
    rectified, against column `q` of the weights. -/
private theorem pay1_apply (x0 : Vec Ideal S5000x128 .f32) (x1 : Vec Ideal S1x128 .f32) (x2 : Vec Ideal S128x128 .bf16)
    (p : Fin 5000) (q : Fin 128) :
    k1_pay1 x0 x1 x2 (ix2 p q) = ∑ k : Fin 128, max (x0 (ix2 p k) + x1 (ix2 (0 : Fin 1) k)) 0 * x2 (ix2 k q) := by
  unfold k1_pay1
  simp only [shapeCast_self]
  refine (matmul_block_apply _ _ p q).trans (Finset.sum_congr rfl fun k _ => ?_)
  rw [truncf_apply, maximumf_apply, addf_apply, broadcast_apply, broadcastTo_1b_ab_apply]
  exact congrArg (fun z : EReal => max (x0 (ix2 p k) + x1 (ix2 (0 : Fin 1) k)) z * x2 (ix2 k q)) Ideal.ofBits_zero_f32

/-- The same at any index of the block. -/
private theorem pay1_at (x0 : Vec Ideal S5000x128 .f32) (x1 : Vec Ideal S1x128 .f32) (x2 : Vec Ideal S128x128 .bf16)
    (y : S5000x128.Idx) :
    k1_pay1 x0 x1 x2 y = ∑ k : Fin 128, max (x0 (ix2 (y 0) k) + x1 (ix2 (0 : Fin 1) k)) 0 * x2 (ix2 k (y 1)) := by
  obtain ⟨p, q, rfl⟩ : ∃ (p : Fin 5000) (q : Fin 128), y = ix2 p q := ⟨y 0, y 1, eq_ix2 y⟩
  exact pay1_apply x0 x1 x2 p q

/-- The block indices at point `t`: the input and the output are at row block `t`, the bias row and the weights at
    their one block. -/
private theorem idx1 : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = 0 ∧ win1_2.index t (1 : Fin 2) = 0
  ∧ win1_3.index t (0 : Fin 2) = t.val ∧ win1_3.index t (1 : Fin 2) = 0 :=
  (by decide +kernel : ∀ t : Fin grid1.N, _)

/-- What point `t` writes back is block `t` of the product. -/
private theorem flushed1 (c : Dev nD) (t : Fin cfg1.N) :
    (dat1 (F := Ideal) V c).flushed 3 t
      = ((cfg1.win 3).blk t).view.read (Elt Ideal)
          (mm (relu (addBias (V c main_v40) (V c main_v14))) (V c main_v12)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx1 t
  funext j
  refine (pay1_at _ _ _ j).trans ?_
  have h0 : ∀ k : Fin 128, ((cfg1.win 0).blk t).view.emb (ix2 (j 0 : Fin 5000) k)
      = ix2 ((((cfg1.win 3).blk t).view.emb j) 0 : Fin 50000) k := fun k => by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ∀ k : Fin 128, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, ((cfg1.win 2).blk t).view.emb (ix2 k (j 1 : Fin 128))
      = ix2 k ((((cfg1.win 3).blk t).view.emb j) 1 : Fin 128) := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  have key : ∀ (A : Mat 50000 128) (b : Mat 1 128) (W : Mat 128 128),
      ∑ k : Fin 128, max (A (((cfg1.win 0).blk t).view.emb (ix2 (j 0 : Fin 5000) k))
            + b (((cfg1.win 1).blk t).view.emb (ix2 (0 : Fin 1) k))) 0
          * W (((cfg1.win 2).blk t).view.emb (ix2 k (j 1 : Fin 128)))
        = mm (relu (addBias A b)) W (((cfg1.win 3).blk t).view.emb j) := by
    intro A b W
    refine Finset.sum_congr rfl fun k _ => ?_
    rw [h0 k, h1 k, h2 k]
    rfl
  exact key (V c main_v40) (V c main_v14) (V c main_v12)

/-- An index of the output array lies in point `t`'s block iff each coordinate lies in the block's range. -/
private theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v41).slice (win1_3.rect t)).set ↔ _
  rw [View.set_slice_whole, Rect.mem_set_unit]
  exact Iff.rfl

/-- Row `r` of the output array lies in the block of point `r / 5000`. -/
private theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  obtain ⟨e0, e1, e2, e3, e4, e5, e6, e7⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e7]; omega

/-- The second stage's output array: the rectified biased input times the weight matrix. -/
theorem final1 (c : Dev nD) :
    (dat1 (F := Ideal) V c).arrAt 3 cfg1.N = mm (relu (addBias (V c main_v40) (V c main_v14))) (V c main_v12) :=
  (dat1 (F := Ideal) V c).arrAt_eq_of_cover 3 (mm (relu (addBias (V c main_v40) (V c main_v14))) (V c main_v12))
    (fun t _ => flushed1 V c t) cover1

/-! ## The third stage: the rectified biased input times the weight matrix -/

/-- The third stage's arithmetic at entry `(p, q)` of a block: row `p` of the block, the bias row added and
    rectified, against column `q` of the weights. -/
private theorem pay2_apply (x0 : Vec Ideal S5000x128 .f32) (x1 : Vec Ideal S1x128 .f32) (x2 : Vec Ideal S128x128 .bf16)
    (p : Fin 5000) (q : Fin 128) :
    k2_pay1 x0 x1 x2 (ix2 p q) = ∑ k : Fin 128, max (x0 (ix2 p k) + x1 (ix2 (0 : Fin 1) k)) 0 * x2 (ix2 k q) := by
  unfold k2_pay1
  simp only [shapeCast_self]
  refine (matmul_block_apply _ _ p q).trans (Finset.sum_congr rfl fun k _ => ?_)
  rw [truncf_apply, maximumf_apply, addf_apply, broadcast_apply, broadcastTo_1b_ab_apply]
  exact congrArg (fun z : EReal => max (x0 (ix2 p k) + x1 (ix2 (0 : Fin 1) k)) z * x2 (ix2 k q)) Ideal.ofBits_zero_f32

/-- The same at any index of the block. -/
private theorem pay2_at (x0 : Vec Ideal S5000x128 .f32) (x1 : Vec Ideal S1x128 .f32) (x2 : Vec Ideal S128x128 .bf16)
    (y : S5000x128.Idx) :
    k2_pay1 x0 x1 x2 y = ∑ k : Fin 128, max (x0 (ix2 (y 0) k) + x1 (ix2 (0 : Fin 1) k)) 0 * x2 (ix2 k (y 1)) := by
  obtain ⟨p, q, rfl⟩ : ∃ (p : Fin 5000) (q : Fin 128), y = ix2 p q := ⟨y 0, y 1, eq_ix2 y⟩
  exact pay2_apply x0 x1 x2 p q

/-- The block indices at point `t`: the input and the output are at row block `t`, the bias row and the weights at
    their one block. -/
private theorem idx2 : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = 0 ∧ win2_2.index t (1 : Fin 2) = 0
  ∧ win2_3.index t (0 : Fin 2) = t.val ∧ win2_3.index t (1 : Fin 2) = 0 :=
  (by decide +kernel : ∀ t : Fin grid2.N, _)

/-- What point `t` writes back is block `t` of the product. -/
private theorem flushed2 (c : Dev nD) (t : Fin cfg2.N) :
    (dat2 (F := Ideal) V c).flushed 3 t
      = ((cfg2.win 3).blk t).view.read (Elt Ideal)
          (mm (relu (addBias (V c main_v64) (V c main_v15))) (V c main_v13)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx2 t
  funext j
  refine (pay2_at _ _ _ j).trans ?_
  have h0 : ∀ k : Fin 128, ((cfg2.win 0).blk t).view.emb (ix2 (j 0 : Fin 5000) k)
      = ix2 ((((cfg2.win 3).blk t).view.emb j) 0 : Fin 50000) k := fun k => by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ∀ k : Fin 128, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ∀ k : Fin 128, ((cfg2.win 2).blk t).view.emb (ix2 k (j 1 : Fin 128))
      = ix2 k ((((cfg2.win 3).blk t).view.emb j) 1 : Fin 128) := fun k => by
    funext a; apply Fin.ext
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega
  have key : ∀ (A : Mat 50000 128) (b : Mat 1 128) (W : Mat 128 128),
      ∑ k : Fin 128, max (A (((cfg2.win 0).blk t).view.emb (ix2 (j 0 : Fin 5000) k))
            + b (((cfg2.win 1).blk t).view.emb (ix2 (0 : Fin 1) k))) 0
          * W (((cfg2.win 2).blk t).view.emb (ix2 k (j 1 : Fin 128)))
        = mm (relu (addBias A b)) W (((cfg2.win 3).blk t).view.emb j) := by
    intro A b W
    refine Finset.sum_congr rfl fun k _ => ?_
    rw [h0 k, h1 k, h2 k]
    rfl
  exact key (V c main_v64) (V c main_v15) (V c main_v13)

/-- An index of the output array lies in point `t`'s block iff each coordinate lies in the block's range. -/
private theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v65).slice (win2_3.rect t)).set ↔ _
  rw [View.set_slice_whole, Rect.mem_set_unit]
  exact Iff.rfl

/-- Row `r` of the output array lies in the block of point `r / 5000`. -/
private theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have ht : (i 0).val / 5000 < cfg2.N := by show (i 0).val / 5000 < grid2.N; omega
  obtain ⟨e0, e1, e2, e3, e4, e5, e6, e7⟩ := idx2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e7]; omega

/-- The third stage's output array: the rectified biased input times the weight matrix. -/
theorem final2 (c : Dev nD) :
    (dat2 (F := Ideal) V c).arrAt 3 cfg2.N = mm (relu (addBias (V c main_v64) (V c main_v15))) (V c main_v13) :=
  (dat2 (F := Ideal) V c).arrAt_eq_of_cover 3 (mm (relu (addBias (V c main_v64) (V c main_v15))) (V c main_v13))
    (fun t _ => flushed2 V c t) cover2

/-! ## The last stage: the bias row added -/

/-- The last stage's arithmetic at entry `(p, q)` of a block: the entry plus the bias at column `q`. -/
private theorem pay3_apply (x0 : Vec Ideal S5000x128 .f32) (x1 : Vec Ideal S1x128 .f32) (p : Fin 5000) (q : Fin 128) :
    k3_pay1 x0 x1 (ix2 p q) = x0 (ix2 p q) + x1 (ix2 (0 : Fin 1) q) := by
  unfold k3_pay1
  rw [addf_apply, shapeCast_self, shapeCast_self, shapeCast_self, broadcastTo_1b_ab_apply]

/-- The same at any index of the block. -/
private theorem pay3_at (x0 : Vec Ideal S5000x128 .f32) (x1 : Vec Ideal S1x128 .f32) (y : S5000x128.Idx) :
    k3_pay1 x0 x1 y = x0 y + x1 (ix2 (0 : Fin 1) (y 1)) := by
  obtain ⟨p, q, rfl⟩ : ∃ (p : Fin 5000) (q : Fin 128), y = ix2 p q := ⟨y 0, y 1, eq_ix2 y⟩
  exact pay3_apply x0 x1 p q

/-- The block indices at point `t`: the input and the output are at row block `t`, the bias row at its one block. -/
private theorem idx3 : ∀ t : Fin cfg3.N,
    win3_0.index t (0 : Fin 2) = t.val ∧ win3_0.index t (1 : Fin 2) = 0
  ∧ win3_1.index t (0 : Fin 2) = 0 ∧ win3_1.index t (1 : Fin 2) = 0
  ∧ win3_2.index t (0 : Fin 2) = t.val ∧ win3_2.index t (1 : Fin 2) = 0 :=
  (by decide +kernel : ∀ t : Fin grid3.N, _)

/-- What point `t` writes back is block `t` of the biased input. -/
private theorem flushed3 (c : Dev nD) (t : Fin cfg3.N) :
    (dat3 (F := Ideal) V c).flushed 2 t
      = ((cfg3.win 2).blk t).view.read (Elt Ideal) (addBias (V c main_v88) (V c main_v16)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx3 t
  funext j
  refine (pay3_at _ _ j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have key : ∀ (A : Mat 50000 128) (b : Mat 1 128),
      A (((cfg3.win 0).blk t).view.emb j) + b (((cfg3.win 1).blk t).view.emb (ix2 (0 : Fin 1) (j 1)))
        = A (((cfg3.win 2).blk t).view.emb j) + b (ix2 (0 : Fin 1) ((((cfg3.win 2).blk t).view.emb j) 1)) := by
    intro A b; exact congrArg₂ (· + ·) (congrArg A h0) (congrArg b h1)
  exact key (V c main_v88) (V c main_v16)

/-- An index of the output array lies in point `t`'s block iff each coordinate lies in the block's range. -/
private theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v89).slice (win3_2.rect t)).set ↔ _
  rw [View.set_slice_whole, Rect.mem_set_unit]
  exact Iff.rfl

/-- Row `r` of the output array lies in the block of point `r / 5000`. -/
private theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; omega
  obtain ⟨e0, e1, e2, e3, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]; omega

/-- The last stage's output array: the input with the bias row added. -/
theorem final3 (c : Dev nD) :
    (dat3 (F := Ideal) V c).arrAt 2 cfg3.N = addBias (V c main_v88) (V c main_v16) :=
  (dat3 (F := Ideal) V c).arrAt_eq_of_cover 2 (addBias (V c main_v88) (V c main_v16))
    (fun t _ => flushed3 V c t) cover3

end Cert.KernelIdeal.Regions

end
-- ==== Proof.KerSpec.lean ====
/-
  The idealized kernel program's result as a composition of named stages.

  From the edge list `e` the program takes the sources and targets of the 800000 edges, counts each node's
  incoming edges and adds one (the self-loop), takes `dis = deg^(-1/2)`, and each layer's neighbourhood sum is
  `dis[n] · Σ_{edges into n} (h · dis)[src] + dis[n]² · h[n]`: the source rows are pre-weighted, summed at the
  targets, post-weighted, and the self-loop is a dense term. The dense stages (matrix products, bias, rectifier)
  run as blocked kernels whose output arrays are whole-array functions of their inputs.
-/
import proofs.«140754_j23845658428197_2_alg».proof.Proof.KerRun
import proofs.«140754_j23845658428197_2_alg».proof.Proof.KerRegions
import proofs.«140754_j23845658428197_2_alg».proof.Proof.Spec
import Idealize.ShloMosaic.Lib.StableHlo.Run
import Idealize.ShloMosaic.PureOps.Ideal

set_option maxRecDepth 16384

noncomputable section

namespace Cert.KernelIdeal.KerValue

open Cert.KernelIdeal Cert.KernelIdeal.Gen Cert.KernelIdeal.Regions Cert.Spec
open Idealize.ShloMosaic Idealize.ShloMosaic.TcCoe Idealize.SL.Sem Idealize.ShloMosaic.StableHlo

/-! ## The stages -/

/-- The edges' sources: the edge list's row 0. -/
def srcK (e : IVec S2x800000 32) : IVec S800000 32 :=
  shapeCast _ (extractStridedSlice S1x800000 ![0, 0] e slices_S2x800000_S1x800000_0_0) shapeCasts_S1x800000_S800000

/-- The edges' targets: the edge list's row 1. -/
def tgtK (e : IVec S2x800000 32) : IVec S800000 32 :=
  shapeCast _ (extractStridedSlice S1x800000 ![1, 0] e slices_S2x800000_S1x800000_1_0) shapeCasts_S1x800000_S800000

/-- A list as a column. -/
def colK {α : Type} (v : S800000.Idx → α) : S800000x1.Idx → α :=
  broadcastInDim S800000x1 ![0] bcast_S800000_S800000x1_0 v

/-- Each node's number of incoming edges, plus one for its self-loop. -/
def degK (e : IVec S2x800000 32) : FVec Ideal S50000 .f32 :=
  addf (Host.scatterAdd scatter_S50000_S800000x1_S800000_n_0_0_1 (broadcastInDim S50000 ![] bcast_S_S50000 (constant S_ .f32 0x00000000#32)) (colK (tgtK e)) (broadcastInDim S800000 ![] bcast_S_S800000 (constant S_ .f32 0x3F800000#32))) (broadcastInDim S50000 ![] bcast_S_S50000 (constant S_ .f32 0x3F800000#32))

/-- The normalisation weights `deg^(-1/2)`. -/
def disK (e : IVec S2x800000 32) : FVec Ideal S50000 .f32 := Host.rsqrt (degK e)

/-- A per-node weight as a matrix with constant rows. -/
def rowsK (v : FVec Ideal S50000 .f32) : FVec Ideal S50000x128 .f32 :=
  broadcastInDim S50000x128 ![0, 1] bcast_S50000x1_S50000x128_0_1 (broadcastInDim S50000x1 ![0] bcast_S50000_S50000x1_0 v)

/-- A negative node number counts from the end: `v < 0 ↦ v + 50000`. -/
def wrapK (v : IVec S800000 32) : IVec S800000 32 :=
  select (cmpi .slt v (broadcastInDim S800000 ![] bcast_S_S800000 (constantI S_ 32 0#32))) (addi v (broadcastInDim S800000 ![] bcast_S_S800000 (constantI S_ 32 50000#32))) v

/-- The neighbourhood sum of a node matrix `h`. -/
def aggK (src tgt : IVec S800000 32) (dis : FVec Ideal S50000 .f32) (h : FVec Ideal S50000x128 .f32) : FVec Ideal S50000x128 .f32 :=
  addf (mulf (rowsK dis) (Host.scatterAdd scatter_S50000x128_S800000x1_S800000x128_1_0_0_1 (broadcastInDim S50000x128 ![] bcast_S_S50000x128 (constant S_ .f32 0x00000000#32)) (colK tgt) (extf .f32 (Host.gather gather_S50000x128_S800000x1_S800000x128_1_0_n_n_0_1_1128 (truncf .bf16 (mulf h (rowsK dis)) bitsLt_bf16_f32) (colK (wrapK src))) bitsLt_bf16_f32))) (mulf (rowsK (mulf dis dis)) h)

/-- The three layers: the blocked dense stages around the neighbourhood sums. -/
def kerOut (X : FVec Ideal S50000x128 .f32) (e : IVec S2x800000 32) (W1 : FVec Ideal S128x128 .f32) (b1 : FVec Ideal S128 .f32)
    (W2 : FVec Ideal S128x128 .f32) (b2 : FVec Ideal S128 .f32) (W3 : FVec Ideal S128x128 .f32) (b3 : FVec Ideal S128 .f32) :
    FVec Ideal S50000x128 .f32 :=
  addBias (aggK (srcK e) (tgtK e) (disK e)
    (mm (relu (addBias (aggK (srcK e) (tgtK e) (disK e)
      (mm (relu (addBias (aggK (srcK e) (tgtK e) (disK e)
        (mm X (truncf .bf16 W1 bitsLt_bf16_f32)))
        (shapeCast _ b1 shapeCasts_S128_S1x128))) (truncf .bf16 W2 bitsLt_bf16_f32)))
      (shapeCast _ b2 shapeCasts_S128_S1x128))) (truncf .bf16 W3 bitsLt_bf16_f32)))
    (shapeCast _ b3 shapeCasts_S128_S1x128)

/-! ## The buffer contents at the segment boundaries -/

variable (m : (ℓ : Loc nD τ sig) → Buf (Elt Ideal) ℓ) (ρ : Dev nD → PrngReg) (c : Dev nD)

/-- A buffer no operation of a host stretch writes is unchanged by the stretch. -/
macro "skip_host" : tactic => `(tactic| exact StableHlo.after_of_forall_not_mem _ _ (List.forall_iff_forall_mem.mp (by
  simp only [hostOps0, hostOps1, hostOps2, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! What the first host stretch computes from the arguments is carried unchanged to where it is read. -/
theorem k2_v1 : W2 (F := Ideal) m ρ c (Proc.devRef .tc main_v1) = W1 (F := Ideal) m ρ c (Proc.devRef .tc main_v1) :=
  W2_of_ne m ρ c main_v1 (by decide)
theorem k2_v3 : W2 (F := Ideal) m ρ c (Proc.devRef .tc main_v3) = W1 (F := Ideal) m ρ c (Proc.devRef .tc main_v3) :=
  W2_of_ne m ρ c main_v3 (by decide)
theorem k2_v10 : W2 (F := Ideal) m ρ c (Proc.devRef .tc main_v10) = W1 (F := Ideal) m ρ c (Proc.devRef .tc main_v10) :=
  W2_of_ne m ρ c main_v10 (by decide)
theorem k2_v12 : W2 (F := Ideal) m ρ c (Proc.devRef .tc main_v12) = W1 (F := Ideal) m ρ c (Proc.devRef .tc main_v12) :=
  W2_of_ne m ρ c main_v12 (by decide)
theorem k2_v13 : W2 (F := Ideal) m ρ c (Proc.devRef .tc main_v13) = W1 (F := Ideal) m ρ c (Proc.devRef .tc main_v13) :=
  W2_of_ne m ρ c main_v13 (by decide)
theorem k2_v14 : W2 (F := Ideal) m ρ c (Proc.devRef .tc main_v14) = W1 (F := Ideal) m ρ c (Proc.devRef .tc main_v14) :=
  W2_of_ne m ρ c main_v14 (by decide)
theorem k2_v15 : W2 (F := Ideal) m ρ c (Proc.devRef .tc main_v15) = W1 (F := Ideal) m ρ c (Proc.devRef .tc main_v15) :=
  W2_of_ne m ρ c main_v15 (by decide)
theorem k2_v16 : W2 (F := Ideal) m ρ c (Proc.devRef .tc main_v16) = W1 (F := Ideal) m ρ c (Proc.devRef .tc main_v16) :=
  W2_of_ne m ρ c main_v16 (by decide)
theorem k3_v1 : W3 (F := Ideal) m ρ c (Proc.devRef .tc main_v1) = W1 (F := Ideal) m ρ c (Proc.devRef .tc main_v1) :=
  (show W3 (F := Ideal) m ρ c (Proc.devRef .tc main_v1) = W2 (F := Ideal) m ρ c (Proc.devRef .tc main_v1) by skip_host).trans (k2_v1 m ρ c)
theorem k3_v3 : W3 (F := Ideal) m ρ c (Proc.devRef .tc main_v3) = W1 (F := Ideal) m ρ c (Proc.devRef .tc main_v3) :=
  (show W3 (F := Ideal) m ρ c (Proc.devRef .tc main_v3) = W2 (F := Ideal) m ρ c (Proc.devRef .tc main_v3) by skip_host).trans (k2_v3 m ρ c)
theorem k3_v10 : W3 (F := Ideal) m ρ c (Proc.devRef .tc main_v10) = W1 (F := Ideal) m ρ c (Proc.devRef .tc main_v10) :=
  (show W3 (F := Ideal) m ρ c (Proc.devRef .tc main_v10) = W2 (F := Ideal) m ρ c (Proc.devRef .tc main_v10) by skip_host).trans (k2_v10 m ρ c)
theorem k3_v12 : W3 (F := Ideal) m ρ c (Proc.devRef .tc main_v12) = W1 (F := Ideal) m ρ c (Proc.devRef .tc main_v12) :=
  (show W3 (F := Ideal) m ρ c (Proc.devRef .tc main_v12) = W2 (F := Ideal) m ρ c (Proc.devRef .tc main_v12) by skip_host).trans (k2_v12 m ρ c)
theorem k3_v13 : W3 (F := Ideal) m ρ c (Proc.devRef .tc main_v13) = W1 (F := Ideal) m ρ c (Proc.devRef .tc main_v13) :=
  (show W3 (F := Ideal) m ρ c (Proc.devRef .tc main_v13) = W2 (F := Ideal) m ρ c (Proc.devRef .tc main_v13) by skip_host).trans (k2_v13 m ρ c)
theorem k3_v14 : W3 (F := Ideal) m ρ c (Proc.devRef .tc main_v14) = W1 (F := Ideal) m ρ c (Proc.devRef .tc main_v14) :=
  (show W3 (F := Ideal) m ρ c (Proc.devRef .tc main_v14) = W2 (F := Ideal) m ρ c (Proc.devRef .tc main_v14) by skip_host).trans (k2_v14 m ρ c)
theorem k3_v15 : W3 (F := Ideal) m ρ c (Proc.devRef .tc main_v15) = W1 (F := Ideal) m ρ c (Proc.devRef .tc main_v15) :=
  (show W3 (F := Ideal) m ρ c (Proc.devRef .tc main_v15) = W2 (F := Ideal) m ρ c (Proc.devRef .tc main_v15) by skip_host).trans (k2_v15 m ρ c)
theorem k3_v16 : W3 (F := Ideal) m ρ c (Proc.devRef .tc main_v16) = W1 (F := Ideal) m ρ c (Proc.devRef .tc main_v16) :=
  (show W3 (F := Ideal) m ρ c (Proc.devRef .tc main_v16) = W2 (F := Ideal) m ρ c (Proc.devRef .tc main_v16) by skip_host).trans (k2_v16 m ρ c)
theorem k4_v1 : W4 (F := Ideal) m ρ c (Proc.devRef .tc main_v1) = W1 (F := Ideal) m ρ c (Proc.devRef .tc main_v1) :=
  (W4_of_ne m ρ c main_v1 (by decide)).trans (k3_v1 m ρ c)
theorem k4_v3 : W4 (F := Ideal) m ρ c (Proc.devRef .tc main_v3) = W1 (F := Ideal) m ρ c (Proc.devRef .tc main_v3) :=
  (W4_of_ne m ρ c main_v3 (by decide)).trans (k3_v3 m ρ c)
theorem k4_v10 : W4 (F := Ideal) m ρ c (Proc.devRef .tc main_v10) = W1 (F := Ideal) m ρ c (Proc.devRef .tc main_v10) :=
  (W4_of_ne m ρ c main_v10 (by decide)).trans (k3_v10 m ρ c)
theorem k4_v13 : W4 (F := Ideal) m ρ c (Proc.devRef .tc main_v13) = W1 (F := Ideal) m ρ c (Proc.devRef .tc main_v13) :=
  (W4_of_ne m ρ c main_v13 (by decide)).trans (k3_v13 m ρ c)
theorem k4_v15 : W4 (F := Ideal) m ρ c (Proc.devRef .tc main_v15) = W1 (F := Ideal) m ρ c (Proc.devRef .tc main_v15) :=
  (W4_of_ne m ρ c main_v15 (by decide)).trans (k3_v15 m ρ c)
theorem k4_v16 : W4 (F := Ideal) m ρ c (Proc.devRef .tc main_v16) = W1 (F := Ideal) m ρ c (Proc.devRef .tc main_v16) :=
  (W4_of_ne m ρ c main_v16 (by decide)).trans (k3_v16 m ρ c)
theorem k5_v1 : W5 (F := Ideal) m ρ c (Proc.devRef .tc main_v1) = W1 (F := Ideal) m ρ c (Proc.devRef .tc main_v1) :=
  (show W5 (F := Ideal) m ρ c (Proc.devRef .tc main_v1) = W4 (F := Ideal) m ρ c (Proc.devRef .tc main_v1) by skip_host).trans (k4_v1 m ρ c)
theorem k5_v3 : W5 (F := Ideal) m ρ c (Proc.devRef .tc main_v3) = W1 (F := Ideal) m ρ c (Proc.devRef .tc main_v3) :=
  (show W5 (F := Ideal) m ρ c (Proc.devRef .tc main_v3) = W4 (F := Ideal) m ρ c (Proc.devRef .tc main_v3) by skip_host).trans (k4_v3 m ρ c)
theorem k5_v10 : W5 (F := Ideal) m ρ c (Proc.devRef .tc main_v10) = W1 (F := Ideal) m ρ c (Proc.devRef .tc main_v10) :=
  (show W5 (F := Ideal) m ρ c (Proc.devRef .tc main_v10) = W4 (F := Ideal) m ρ c (Proc.devRef .tc main_v10) by skip_host).trans (k4_v10 m ρ c)
theorem k5_v13 : W5 (F := Ideal) m ρ c (Proc.devRef .tc main_v13) = W1 (F := Ideal) m ρ c (Proc.devRef .tc main_v13) :=
  (show W5 (F := Ideal) m ρ c (Proc.devRef .tc main_v13) = W4 (F := Ideal) m ρ c (Proc.devRef .tc main_v13) by skip_host).trans (k4_v13 m ρ c)
theorem k5_v15 : W5 (F := Ideal) m ρ c (Proc.devRef .tc main_v15) = W1 (F := Ideal) m ρ c (Proc.devRef .tc main_v15) :=
  (show W5 (F := Ideal) m ρ c (Proc.devRef .tc main_v15) = W4 (F := Ideal) m ρ c (Proc.devRef .tc main_v15) by skip_host).trans (k4_v15 m ρ c)
theorem k5_v16 : W5 (F := Ideal) m ρ c (Proc.devRef .tc main_v16) = W1 (F := Ideal) m ρ c (Proc.devRef .tc main_v16) :=
  (show W5 (F := Ideal) m ρ c (Proc.devRef .tc main_v16) = W4 (F := Ideal) m ρ c (Proc.devRef .tc main_v16) by skip_host).trans (k4_v16 m ρ c)
theorem k6_v1 : W6 (F := Ideal) m ρ c (Proc.devRef .tc main_v1) = W1 (F := Ideal) m ρ c (Proc.devRef .tc main_v1) :=
  (W6_of_ne m ρ c main_v1 (by decide)).trans (k5_v1 m ρ c)
theorem k6_v3 : W6 (F := Ideal) m ρ c (Proc.devRef .tc main_v3) = W1 (F := Ideal) m ρ c (Proc.devRef .tc main_v3) :=
  (W6_of_ne m ρ c main_v3 (by decide)).trans (k5_v3 m ρ c)
theorem k6_v10 : W6 (F := Ideal) m ρ c (Proc.devRef .tc main_v10) = W1 (F := Ideal) m ρ c (Proc.devRef .tc main_v10) :=
  (W6_of_ne m ρ c main_v10 (by decide)).trans (k5_v10 m ρ c)
theorem k6_v16 : W6 (F := Ideal) m ρ c (Proc.devRef .tc main_v16) = W1 (F := Ideal) m ρ c (Proc.devRef .tc main_v16) :=
  (W6_of_ne m ρ c main_v16 (by decide)).trans (k5_v16 m ρ c)
theorem k7_v16 : W7 (F := Ideal) m ρ c (Proc.devRef .tc main_v16) = W1 (F := Ideal) m ρ c (Proc.devRef .tc main_v16) :=
  (show W7 (F := Ideal) m ρ c (Proc.devRef .tc main_v16) = W6 (F := Ideal) m ρ c (Proc.devRef .tc main_v16) by skip_host).trans (k6_v16 m ρ c)

/-! ## What each segment leaves -/

/-! The first host stretch: the edge list's two rows, the weights, the operands of the dense stages in their formats. -/
theorem w1_v1 : W1 (F := Ideal) m ρ c (Proc.devRef .tc main_v1) = srcK (m ((c.tc : Thread nD τ).loc main_arg1)) := by
  show StableHlo.after hostOps0 (W0 m ρ c) (Proc.devRef .tc main_v1) = _
  after_results <;> rfl
theorem w1_v3 : W1 (F := Ideal) m ρ c (Proc.devRef .tc main_v3) = tgtK (m ((c.tc : Thread nD τ).loc main_arg1)) := by
  show StableHlo.after hostOps0 (W0 m ρ c) (Proc.devRef .tc main_v3) = _
  after_results <;> rfl
theorem w1_v10 : W1 (F := Ideal) m ρ c (Proc.devRef .tc main_v10) = disK (m ((c.tc : Thread nD τ).loc main_arg1)) := by
  show StableHlo.after hostOps0 (W0 m ρ c) (Proc.devRef .tc main_v10) = _
  after_results <;> rfl
theorem w1_v11 : W1 (F := Ideal) m ρ c (Proc.devRef .tc main_v11) = (truncf .bf16 (m ((c.tc : Thread nD τ).loc main_arg2) : FVec Ideal S128x128 .f32) bitsLt_bf16_f32 : FVec Ideal S128x128 .bf16) := by
  show StableHlo.after hostOps0 (W0 m ρ c) (Proc.devRef .tc main_v11) = _
  after_results <;> rfl
theorem w1_v12 : W1 (F := Ideal) m ρ c (Proc.devRef .tc main_v12) = (truncf .bf16 (m ((c.tc : Thread nD τ).loc main_arg4) : FVec Ideal S128x128 .f32) bitsLt_bf16_f32 : FVec Ideal S128x128 .bf16) := by
  show StableHlo.after hostOps0 (W0 m ρ c) (Proc.devRef .tc main_v12) = _
  after_results <;> rfl
theorem w1_v13 : W1 (F := Ideal) m ρ c (Proc.devRef .tc main_v13) = (truncf .bf16 (m ((c.tc : Thread nD τ).loc main_arg6) : FVec Ideal S128x128 .f32) bitsLt_bf16_f32 : FVec Ideal S128x128 .bf16) := by
  show StableHlo.after hostOps0 (W0 m ρ c) (Proc.devRef .tc main_v13) = _
  after_results <;> rfl
theorem w1_v14 : W1 (F := Ideal) m ρ c (Proc.devRef .tc main_v14) = shapeCast _ (m ((c.tc : Thread nD τ).loc main_arg3)) shapeCasts_S128_S1x128 := by
  show StableHlo.after hostOps0 (W0 m ρ c) (Proc.devRef .tc main_v14) = _
  after_results <;> rfl
theorem w1_v15 : W1 (F := Ideal) m ρ c (Proc.devRef .tc main_v15) = shapeCast _ (m ((c.tc : Thread nD τ).loc main_arg5)) shapeCasts_S128_S1x128 := by
  show StableHlo.after hostOps0 (W0 m ρ c) (Proc.devRef .tc main_v15) = _
  after_results <;> rfl
theorem w1_v16 : W1 (F := Ideal) m ρ c (Proc.devRef .tc main_v16) = shapeCast _ (m ((c.tc : Thread nD τ).loc main_arg7)) shapeCasts_S128_S1x128 := by
  show StableHlo.after hostOps0 (W0 m ρ c) (Proc.devRef .tc main_v16) = _
  after_results <;> rfl
theorem w1_arg0 : W1 (F := Ideal) m ρ c (Proc.devRef .tc main_arg0) = (m ((c.tc : Thread nD τ).loc main_arg0)) := by
  show StableHlo.after hostOps0 (W0 m ρ c) (Proc.devRef .tc main_arg0) = _
  after_results <;> rfl

/-! The dense stages (their output arrays as whole-array functions) and the host stretches between them. -/
theorem w2_v17 : W2 (F := Ideal) m ρ c (Proc.devRef .tc main_v17) = mm (W1 (F := Ideal) m ρ c (Proc.devRef .tc main_arg0)) (W1 (F := Ideal) m ρ c (Proc.devRef .tc main_v11)) :=
  (W2_arr m ρ c 2).trans (final0 (V1 m ρ) c)
set_option maxHeartbeats 8000000 in
theorem w3_v40 : W3 (F := Ideal) m ρ c (Proc.devRef .tc main_v40) = aggK (W2 (F := Ideal) m ρ c (Proc.devRef .tc main_v1)) (W2 (F := Ideal) m ρ c (Proc.devRef .tc main_v3)) (W2 (F := Ideal) m ρ c (Proc.devRef .tc main_v10)) (W2 (F := Ideal) m ρ c (Proc.devRef .tc main_v17)) := by
  show StableHlo.after hostOps1 (W2 m ρ c) (Proc.devRef .tc main_v40) = _
  after_results
  unfold aggK rowsK colK wrapK
  rfl
theorem w4_v41 : W4 (F := Ideal) m ρ c (Proc.devRef .tc main_v41) = mm (relu (addBias (W3 (F := Ideal) m ρ c (Proc.devRef .tc main_v40)) (W3 (F := Ideal) m ρ c (Proc.devRef .tc main_v14)))) (W3 (F := Ideal) m ρ c (Proc.devRef .tc main_v12)) :=
  (W4_arr m ρ c 3).trans (final1 (V3 m ρ) c)
set_option maxHeartbeats 8000000 in
theorem w5_v64 : W5 (F := Ideal) m ρ c (Proc.devRef .tc main_v64) = aggK (W4 (F := Ideal) m ρ c (Proc.devRef .tc main_v1)) (W4 (F := Ideal) m ρ c (Proc.devRef .tc main_v3)) (W4 (F := Ideal) m ρ c (Proc.devRef .tc main_v10)) (W4 (F := Ideal) m ρ c (Proc.devRef .tc main_v41)) := by
  show StableHlo.after hostOps2 (W4 m ρ c) (Proc.devRef .tc main_v64) = _
  after_results
  unfold aggK rowsK colK wrapK
  rfl
theorem w6_v65 : W6 (F := Ideal) m ρ c (Proc.devRef .tc main_v65) = mm (relu (addBias (W5 (F := Ideal) m ρ c (Proc.devRef .tc main_v64)) (W5 (F := Ideal) m ρ c (Proc.devRef .tc main_v15)))) (W5 (F := Ideal) m ρ c (Proc.devRef .tc main_v13)) :=
  (W6_arr m ρ c 3).trans (final2 (V5 m ρ) c)
set_option maxHeartbeats 8000000 in
theorem w7_v88 : W7 (F := Ideal) m ρ c (Proc.devRef .tc main_v88) = aggK (W6 (F := Ideal) m ρ c (Proc.devRef .tc main_v1)) (W6 (F := Ideal) m ρ c (Proc.devRef .tc main_v3)) (W6 (F := Ideal) m ρ c (Proc.devRef .tc main_v10)) (W6 (F := Ideal) m ρ c (Proc.devRef .tc main_v65)) := by
  show StableHlo.after hostOps3 (W6 m ρ c) (Proc.devRef .tc main_v88) = _
  after_results
  unfold aggK rowsK colK wrapK
  rfl
theorem w8_v89 : W8 (F := Ideal) m ρ c (Proc.devRef .tc main_v89) = addBias (W7 (F := Ideal) m ρ c (Proc.devRef .tc main_v88)) (W7 (F := Ideal) m ρ c (Proc.devRef .tc main_v16)) :=
  (W8_arr m ρ c 2).trans (final3 (V7 m ρ) c)

/-- THE RESULT BUFFER after the run: the stages composed, as a function of the eight argument arrays. -/
theorem ker_value : W8 (F := Ideal) m ρ c (Proc.devRef .tc main_v89)
    = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [w8_v89, w7_v88, w6_v65, w5_v64, w4_v41, w3_v40, w2_v17,
    k7_v16, k6_v1, k6_v3, k6_v10, k5_v13, k5_v15, k4_v1, k4_v3, k4_v10, k3_v12, k3_v14, k2_v1, k2_v3, k2_v10,
    w1_v1, w1_v3, w1_v10, w1_v11, w1_v12, w1_v13, w1_v14, w1_v15, w1_v16, w1_arg0]
  rfl

end Cert.KernelIdeal.KerValue

end
-- ==== Proof.HostIdx.lean ====
/-
  The two index operations of a graph aggregation, read at one index, for every extent.

  A list of E start words (a column `[E, 1]` of 32-bit integers) names rows of a table with N rows. A GATHER reads,
  for list position k, the table's row named by word k: the word read as a signed integer and clamped into
  `[0, N - 1]`. A SCATTER-ADD does the converse accumulation: row n of the result is row n of the operand plus the
  sum of the update rows k whose word, read as a signed integer and NOT clamped, is exactly n; an update whose
  word names no row contributes nothing. Both are stated for a table of rows of C entries (`[N, C]`) and for a
  table of single entries (`[N]`), over the extended reals for the accumulating scatter.
-/
import Idealize.ShloMosaic.PureOps
import Idealize.ShloMosaic.PureOps.Ideal
import Idealize.ShloMosaic.Lib.ValueIdx

noncomputable section

open scoped BigOperators

namespace Cert.HostIdx

open Idealize.ShloMosaic Idealize.ShloMosaic.ValueIdx

/-- The row a start word names once clamped: the word as a signed integer, negative values at row 0, values past
    the table at its last row. -/
def clampRow (N : Nat) (hN : 0 < N) (x : BitVec 32) : Fin N := ⟨min x.toInt.toNat (N - 1), by omega⟩

/-! ## Gathering rows of `[N, C]` by a column of E start words -/

/-- The dimension numbers of `table[words]` for a table `[N, C]`: whole rows, the row named by the start word. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(k, q)` of the gathered rows is entry `q` of the table's row named by word `k`, clamped. -/
theorem rowGather_apply {α : Type} {N E C : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (k : Fin E) (q : Fin C) :
    Host.gather (rowGather N E C wf) x idx (ix2 k q) = x (ix2 (clampRow N hN (idx (ix2 k (0 : Fin 1)))) q) := by
  unfold Host.gather
  congr 1
  funext a
  match a with
  | ⟨0, _⟩ =>
    refine Fin.ext ?_
    show (rowGather N E C wf).start (ix2 k q) idx 0 + (rowGather N E C wf).batchCoord (ix2 k q) 0
      + (rowGather N E C wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 k q) ⟨List.idxOf (0 : Fin 2) (rowGather N E C wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    refine Fin.ext ?_
    show (rowGather N E C wf).start (ix2 k q) idx 1 + (rowGather N E C wf).batchCoord (ix2 k q) 1
      + (rowGather N E C wf).offCoord (ix2 k q) 1 = _
    rw [GatherDims.batchCoord_eq_zero _ _ _ List.not_mem_nil]
    unfold GatherDims.start
    rw [dif_neg (show (1 : Fin 2) ∉ (rowGather N E C wf).startIndexMap from
      fun h => absurd (congrArg Fin.val (List.mem_singleton.mp h)) Nat.one_ne_zero)]
    simp only [Nat.add_zero, Nat.zero_add]
    rfl

/-! ## Gathering entries of `[N]` by a column of E start words -/

/-- The dimension numbers of `vector[words]` for a vector `[N]`. -/
abbrev elemGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `k` of the gathered vector is the vector's entry named by word `k`, clamped. -/
theorem elemGather_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (k : Fin E) :
    Host.gather (elemGather N E wf) x idx (ix1 k) = x (ix1 (clampRow N hN (idx (ix2 k (0 : Fin 1))))) := by
  unfold Host.gather
  congr 1
  funext a
  obtain rfl : a = 0 := Subsingleton.elim _ _
  refine Fin.ext ?_
  show (elemGather N E wf).start (ix1 k) idx 0 + (elemGather N E wf).batchCoord (ix1 k) 0
    + (elemGather N E wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGather N E wf).startIndexMap from List.mem_singleton.mpr rfl)]
  have hsi : (elemGather N E wf).siIdx (ix1 k) ⟨List.idxOf (0 : Fin 1) (elemGather N E wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-! ## Accumulating rows into `[N, C]` at a column of E start words, over the extended reals -/

/-- The dimension numbers of `operand.at[words].add(updates)` for rows of C entries. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update entry `(k, q')` lands: at `(n, q)` exactly when word `k`, read signed, is `n` and `q' = q`.
    On axis 0 the landing coordinate is the word (no window coordinate: the axis is inserted), on axis 1 it is
    the update's own second coordinate (no start: the axis is not named by the index map); a word outside
    `[0, N)` lands nowhere. -/
private theorem rowScatter_resultIdx {N E C : Nat} (wf : ScatterDims.WF ⟨2, ![N, C]⟩ ⟨2, ![E, 1]⟩ ⟨2, ![E, C]⟩ [1] [0] [0] 1)
    (idx : IVec ⟨2, ![E, 1]⟩ 32) (k : Fin E) (q' q : Fin C) (n : Fin N) :
    (rowScatter N E C wf).resultIdx? (ix2 k q') idx = some (ix2 n q)
      ↔ ((idx (ix2 k (0 : Fin 1))).toInt = (n.val : Int) ∧ q' = q) := by
  have hs0 : (rowScatter N E C wf).start (ix2 k q') idx 0 = (idx (ix2 k (0 : Fin 1))).toInt := by
    unfold ScatterDims.start
    rw [dif_pos (show (0 : Fin 2) ∈ (rowScatter N E C wf).scatterDimsToOperandDims from List.mem_singleton.mpr rfl)]
    have hsi : (rowScatter N E C wf).siIdx (ix2 k q') ⟨List.idxOf (0 : Fin 2) (rowScatter N E C wf).scatterDimsToOperandDims,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
  have hs1 : (rowScatter N E C wf).start (ix2 k q') idx 1 = 0 := by
    unfold ScatterDims.start
    rw [dif_neg (show (1 : Fin 2) ∉ (rowScatter N E C wf).scatterDimsToOperandDims from
      fun h => absurd (congrArg Fin.val (List.mem_singleton.mp h)) Nat.one_ne_zero)]
  have hw0 : (rowScatter N E C wf).window (ix2 k q') 0 = 0 := rfl
  have hw1 : (rowScatter N E C wf).window (ix2 k q') 1 = q'.val := rfl
  unfold ScatterDims.resultIdx?
  constructor
  · intro h
    split at h
    · rename_i hall
      have hf := Option.some.inj h
      have h0 : ((rowScatter N E C wf).start (ix2 k q') idx 0
          + ((rowScatter N E C wf).window (ix2 k q') 0 : Nat)).toNat = n.val := congrArg Fin.val (congrFun hf 0)
      have h1 : ((rowScatter N E C wf).start (ix2 k q') idx 1
          + ((rowScatter N E C wf).window (ix2 k q') 1 : Nat)).toNat = q.val := congrArg Fin.val (congrFun hf 1)
      have ha0 := (hall 0).1
      rw [hs0, hw0] at h0 ha0
      rw [hs1, hw1] at h1
      refine ⟨by omega, Fin.ext (by omega)⟩
    · exact absurd h (by simp)
  · rintro ⟨hn, rfl⟩
    have hall : ∀ a, 0 ≤ (rowScatter N E C wf).start (ix2 k q') idx a + ((rowScatter N E C wf).window (ix2 k q') a : Nat)
        ∧ (rowScatter N E C wf).start (ix2 k q') idx a + ((rowScatter N E C wf).window (ix2 k q') a : Nat)
          < ((⟨2, ![N, C]⟩ : Shape).size a : Nat) := by
      intro a
      match a with
      | ⟨0, _⟩ =>
        show 0 ≤ (rowScatter N E C wf).start (ix2 k q') idx 0 + ((rowScatter N E C wf).window (ix2 k q') 0 : Nat)
          ∧ (rowScatter N E C wf).start (ix2 k q') idx 0 + ((rowScatter N E C wf).window (ix2 k q') 0 : Nat) < (N : Int)
        rw [hs0, hw0, hn]
        have := n.isLt
        omega
      | ⟨1, _⟩ =>
        show 0 ≤ (rowScatter N E C wf).start (ix2 k q') idx 1 + ((rowScatter N E C wf).window (ix2 k q') 1 : Nat)
          ∧ (rowScatter N E C wf).start (ix2 k q') idx 1 + ((rowScatter N E C wf).window (ix2 k q') 1 : Nat) < (C : Int)
        rw [hs1, hw1]
        have := q'.isLt
        omega
    rw [dif_pos hall]
    congr 1
    funext a
    refine Fin.ext ?_
    match a with
    | ⟨0, _⟩ =>
      show ((rowScatter N E C wf).start (ix2 k q') idx 0
          + ((rowScatter N E C wf).window (ix2 k q') 0 : Nat)).toNat = n.val
      rw [hs0, hw0, hn]; omega
    | ⟨1, _⟩ =>
      show ((rowScatter N E C wf).start (ix2 k q') idx 1
          + ((rowScatter N E C wf).window (ix2 k q') 1 : Nat)).toNat = q'.val
      rw [hs1, hw1]; omega

/-- Entry `(n, q)` of the accumulated table: the operand's, plus the sum over list positions `k` whose word is
    exactly `n` of the update's entry `(k, q)`. -/
theorem rowScatterAdd_apply {N E C : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32) (u : (⟨2, ![E, C]⟩ : Shape).Idx → EReal)
    (n : Fin N) (q : Fin C) :
    Ideal.hostScatterAdd (rowScatter N E C wf) x idx u (ix2 n q)
      = x (ix2 n q) + ∑ k : Fin E, if (idx (ix2 k (0 : Fin 1))).toInt = (n.val : Int) then u (ix2 k q) else 0 := by
  unfold Ideal.hostScatterAdd
  congr 1
  rw [Finset.sum_filter, sum_idx2]
  refine Finset.sum_congr rfl (fun k _ => ?_)
  rw [Finset.sum_eq_single q]
  · by_cases hP : (idx (ix2 k (0 : Fin 1))).toInt = (n.val : Int)
    · rw [if_pos hP, if_pos ((rowScatter_resultIdx wf idx k q q n).mpr ⟨hP, rfl⟩)]
    · rw [if_neg hP, if_neg (fun h => hP ((rowScatter_resultIdx wf idx k q q n).mp h).1)]
  · intro b _ hb
    rw [if_neg (fun h => hb ((rowScatter_resultIdx wf idx k b q n).mp h).2)]
  · intro h; exact absurd (Finset.mem_univ q) h

/-! ## Accumulating entries into `[N]` at a column of E start words, over the extended reals -/

/-- The dimension numbers of `operand.at[words].add(updates)` for single entries. -/
abbrev elemScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate's range. -/
private def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Where update entry `k` lands: at `n` exactly when word `k`, read signed, is `n` (the one operand axis is
    inserted, so the landing coordinate is the word itself); a word outside `[0, N)` lands nowhere. -/
private theorem elemScatter_resultIdx {N E : Nat} (wf : ScatterDims.WF ⟨1, ![N]⟩ ⟨2, ![E, 1]⟩ ⟨1, ![E]⟩ [] [0] [0] 1)
    (idx : IVec ⟨2, ![E, 1]⟩ 32) (k : Fin E) (n : Fin N) :
    (elemScatter N E wf).resultIdx? (ix1 k) idx = some (ix1 n)
      ↔ (idx (ix2 k (0 : Fin 1))).toInt = (n.val : Int) := by
  have hs0 : (elemScatter N E wf).start (ix1 k) idx 0 = (idx (ix2 k (0 : Fin 1))).toInt := by
    unfold ScatterDims.start
    rw [dif_pos (show (0 : Fin 1) ∈ (elemScatter N E wf).scatterDimsToOperandDims from List.mem_singleton.mpr rfl)]
    have hsi : (elemScatter N E wf).siIdx (ix1 k) ⟨List.idxOf (0 : Fin 1) (elemScatter N E wf).scatterDimsToOperandDims,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
  have hw0 : (elemScatter N E wf).window (ix1 k) 0 = 0 := rfl
  unfold ScatterDims.resultIdx?
  constructor
  · intro h
    split at h
    · rename_i hall
      have hf := Option.some.inj h
      have h0 : ((elemScatter N E wf).start (ix1 k) idx 0
          + ((elemScatter N E wf).window (ix1 k) 0 : Nat)).toNat = n.val := congrArg Fin.val (congrFun hf 0)
      have ha0 := (hall 0).1
      rw [hs0, hw0] at h0 ha0
      omega
    · exact absurd h (by simp)
  · intro hn
    have hall : ∀ a, 0 ≤ (elemScatter N E wf).start (ix1 k) idx a + ((elemScatter N E wf).window (ix1 k) a : Nat)
        ∧ (elemScatter N E wf).start (ix1 k) idx a + ((elemScatter N E wf).window (ix1 k) a : Nat)
          < ((⟨1, ![N]⟩ : Shape).size a : Nat) := by
      intro a
      obtain rfl : a = 0 := Subsingleton.elim _ _
      show 0 ≤ (elemScatter N E wf).start (ix1 k) idx 0 + ((elemScatter N E wf).window (ix1 k) 0 : Nat)
        ∧ (elemScatter N E wf).start (ix1 k) idx 0 + ((elemScatter N E wf).window (ix1 k) 0 : Nat) < (N : Int)
      rw [hs0, hw0, hn]
      have := n.isLt
      omega
    rw [dif_pos hall]
    congr 1
    funext a
    refine Fin.ext ?_
    obtain rfl : a = 0 := Subsingleton.elim _ _
    show ((elemScatter N E wf).start (ix1 k) idx 0
        + ((elemScatter N E wf).window (ix1 k) 0 : Nat)).toNat = n.val
    rw [hs0, hw0, hn]; omega

/-- Entry `n` of the accumulated vector: the operand's, plus the sum over list positions `k` whose word is
    exactly `n` of the update's entry `k`. -/
theorem elemScatterAdd_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (u : (⟨1, ![E]⟩ : Shape).Idx → EReal)
    (n : Fin N) :
    Ideal.hostScatterAdd (elemScatter N E wf) x idx u (ix1 n)
      = x (ix1 n) + ∑ k : Fin E, if (idx (ix2 k (0 : Fin 1))).toInt = (n.val : Int) then u (ix1 k) else 0 := by
  unfold Ideal.hostScatterAdd
  congr 1
  rw [Finset.sum_filter, sum_idx1]
  refine Finset.sum_congr rfl (fun k _ => ?_)
  by_cases hP : (idx (ix2 k (0 : Fin 1))).toInt = (n.val : Int)
  · rw [if_pos hP, if_pos ((elemScatter_resultIdx wf idx k n).mpr hP)]
  · rw [if_neg hP, if_neg (fun h => hP ((elemScatter_resultIdx wf idx k n).mp h))]

end Cert.HostIdx

end
-- ==== Proof.Graph.lean ====
/-
  The graph's vocabulary, one edge at a time.

  The edge list is a `[2, 800000]` array of 32-bit words: row 0 the sources, row 1 the targets. An edge's target
  COUNTS for node `n` exactly when its word, read as a signed integer, is `n` (an accumulation drops every word that
  names no node). Where an edge's word is used to READ a row (its source row, or a weight at its target) a
  negative word first counts from the end (`v ↦ v + 50000`) and the result is clamped into `[0, 49999]`. An edge
  whose target counts for `n` reads row `n` itself.
-/
import Idealize.ShloMosaic.PureOps
import Idealize.ShloMosaic.PureOps.Ideal
import Idealize.ShloMosaic.Lib.ValueIdx
import proofs.«140754_j23845658428197_2_alg».proof.Proof.HostIdx
import proofs.«140754_j23845658428197_2_alg».proof.Proof.Spec

noncomputable section

namespace Cert.Graph

open Idealize.ShloMosaic Idealize.ShloMosaic.ValueIdx Cert.HostIdx

/-- The edge list. -/
abbrev Edges : Type := IVec ⟨2, ![2, 800000]⟩ 32

/-- Edge `k`'s target word as a signed integer. -/
def tgtInt (e : Edges) (k : Fin 800000) : ℤ := (e (ix2 (1 : Fin 2) k)).toInt

/-- A negative word counts from the end. -/
def wrapWord (x : BitVec 32) : BitVec 32 :=
  Scalar.select (IntOp.cmpi .slt x 0#32) (IntOp.addi x 50000#32) x

/-- The row a word names when it is used to read: wrapped, then clamped. -/
def readRow (x : BitVec 32) : Fin 50000 := clampRow 50000 (by decide) (wrapWord x)

/-- The row edge `k`'s source word reads. -/
def srcRow (e : Edges) (k : Fin 800000) : Fin 50000 := readRow (e (ix2 (0 : Fin 2) k))

/-- The row edge `k`'s target word reads. -/
def tgtRow (e : Edges) (k : Fin 800000) : Fin 50000 := readRow (e (ix2 (1 : Fin 2) k))

/-- A word that is a node number reads that node's row. -/
theorem readRow_of_toInt (x : BitVec 32) (n : Fin 50000) (h : x.toInt = (n.val : ℤ)) : readRow x = n := by
  have hn : n.val < 50000 := n.isLt
  have hslt : x.slt 0#32 = false := by
    rw [BitVec.slt, h]; simp
  have hw : wrapWord x = x := by
    show Scalar.select (BitVec.ofBool (x.slt 0#32)) (IntOp.addi x 50000#32) x = x
    rw [hslt]
    rfl
  unfold readRow clampRow
  apply Fin.ext
  show min (wrapWord x).toInt.toNat (50000 - 1) = n.val
  rw [hw, h]
  simp only [Int.toNat_natCast]
  omega

/-- An edge whose target counts for `n` reads row `n`. -/
theorem tgtRow_of_tgtInt (e : Edges) (k : Fin 800000) (n : Fin 50000) (h : tgtInt e k = (n.val : ℤ)) : tgtRow e k = n :=
  readRow_of_toInt _ n h

/-- The word `l` (a node number below 50000) is the signed integer `l`. -/
theorem toInt_ofNat (l : Fin 50000) : (BitVec.ofNat 32 l.val).toInt = (l.val : ℤ) := by
  have hl : l.val < 50000 := l.isLt
  have h2 : (2 : ℕ) ^ 32 = 4294967296 := by norm_num
  rw [BitVec.toInt_eq_toNat_cond, BitVec.toNat_ofNat, Nat.mod_eq_of_lt (by omega), if_pos (by omega)]

/-- A node number reads its own row. -/
theorem readRow_ofNat (l : Fin 50000) : readRow (BitVec.ofNat 32 l.val) = l :=
  readRow_of_toInt _ l (toInt_ofNat l)

/-- A bias vector added to every row of a node matrix. -/
def addVec (A : Cert.Spec.Mat 50000 128) (b : (⟨1, ![128]⟩ : Shape).Idx → EReal) : Cert.Spec.Mat 50000 128 :=
  fun i => A i + b (ix1 (i 1))

end Cert.Graph

end
-- ==== Proof.KerRead.lean ====
/-
  The kernel program's host stages read at one index.

  Edge `k`'s target word is entry `(1, k)` of the edge list and its source word entry `(0, k)`. A node's degree is
  the number of edges whose target counts for it, plus one. The neighbourhood sum at node `n`, channel `q`, is the
  node's weight times the sum, over the edges whose target counts for `n`, of the pre-weighted source entry
  `h[src, q] · dis[src]`, plus the self term `dis[n]² · h[n, q]`. A change of float format is the identity.
-/
import proofs.«140754_j23845658428197_2_alg».proof.Proof.KerSpec
import proofs.«140754_j23845658428197_2_alg».proof.Proof.HostIdx
import proofs.«140754_j23845658428197_2_alg».proof.Proof.Graph
import proofs.«140754_j23845658428197_2_alg».proof.Proof.Spec
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

open scoped BigOperators

namespace Cert.KernelIdeal.KerRead

open Cert.KernelIdeal Cert.KernelIdeal.Gen Cert.KernelIdeal.KerValue Cert.Graph Cert.Spec Cert.HostIdx
open Idealize.ShloMosaic Idealize.ShloMosaic.TcCoe Idealize.ShloMosaic.ValueIdx Idealize.SL.Sem

/-- The f32 word of one is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- A list as a column, read at a row. -/
theorem colK_apply {α : Type} (v : S800000.Idx → α) (k : Fin 800000) : colK v (ix2 k (0 : Fin 1)) = v (ix1 k) := by
  unfold colK
  exact broadcastInDim_apply _ bcast_S800000_S800000x1_0 v (ix2 k (0 : Fin 1)) (ix1 k) (fun a => match a with
    | ⟨0, _⟩ => by show k.val = if (800000 : Nat) = 1 then 0 else k.val; rw [if_neg (by decide)])

/-- Edge `k`'s source word. -/
theorem srcK_apply (e : IVec S2x800000 32) (k : Fin 800000) : srcK e (ix1 k) = e (ix2 (0 : Fin 2) k) := by
  unfold srcK
  rw [shapeCast_apply _ shapeCasts_S1x800000_S800000 (ix1 k) (ix2 (0 : Fin 1) k) (by
    rewrite [Shape.rowMajor_val_two, Shape.rowMajor_val_one]; show 0 * 800000 + k.val = k.val; omega)]
  exact extractStridedSlice_apply ![0, 0] e slices_S2x800000_S1x800000_0_0 (ix2 (0 : Fin 1) k) (ix2 (0 : Fin 2) k) (fun a => match a with
    | ⟨0, _⟩ => by show (0 : Nat) = 0 + 0; rfl
    | ⟨1, _⟩ => by show k.val = 0 + k.val; omega)

/-- Edge `k`'s target word. -/
theorem tgtK_apply (e : IVec S2x800000 32) (k : Fin 800000) : tgtK e (ix1 k) = e (ix2 (1 : Fin 2) k) := by
  unfold tgtK
  rw [shapeCast_apply _ shapeCasts_S1x800000_S800000 (ix1 k) (ix2 (0 : Fin 1) k) (by
    rewrite [Shape.rowMajor_val_two, Shape.rowMajor_val_one]; show 0 * 800000 + k.val = k.val; omega)]
  exact extractStridedSlice_apply ![1, 0] e slices_S2x800000_S1x800000_1_0 (ix2 (0 : Fin 1) k) (ix2 (1 : Fin 2) k) (fun a => match a with
    | ⟨0, _⟩ => by show (1 : Nat) = 1 + 0; rfl
    | ⟨1, _⟩ => by show k.val = 0 + k.val; omega)

/-- A per-node weight as a matrix with constant rows, read at an entry. -/
theorem rowsK_apply (v : FVec Ideal S50000 .f32) (n : Fin 50000) (q : Fin 128) : rowsK v (ix2 n q) = v (ix1 n) := by
  unfold rowsK
  rw [broadcastInDim_apply _ bcast_S50000x1_S50000x128_0_1 _ (ix2 n q) (ix2 n (0 : Fin 1)) (fun a => match a with
    | ⟨0, _⟩ => by show n.val = if (50000 : Nat) = 1 then 0 else n.val; rw [if_neg (by decide)]
    | ⟨1, _⟩ => by show (0 : Nat) = if (1 : Nat) = 1 then 0 else q.val; rw [if_pos rfl])]
  exact broadcastInDim_apply _ bcast_S50000_S50000x1_0 v (ix2 n (0 : Fin 1)) (ix1 n) (fun a => match a with
    | ⟨0, _⟩ => by show n.val = if (50000 : Nat) = 1 then 0 else n.val; rw [if_neg (by decide)])

/-- Over the extended reals the host's accumulating scatter is the exact sum, by definition. -/
private theorem scatterAdd_ideal {s si u : Shape} {φ : FTy} {w : Nat} (d : ScatterDims s si u) (x : FVec Ideal s φ)
    (idx : IVec si w) (upd : FVec Ideal u φ) : Host.scatterAdd d x idx upd = Ideal.hostScatterAdd d x idx upd := rfl

/-- The program's dimension numbers are the graph operations' at the program's extents. -/
private theorem rec_elemScatter : scatter_S50000_S800000x1_S800000_n_0_0_1
    = elemScatter 50000 800000 scatter_S50000_S800000x1_S800000_n_0_0_1_wf := rfl
private theorem rec_rowScatter : scatter_S50000x128_S800000x1_S800000x128_1_0_0_1
    = rowScatter 50000 800000 128 scatter_S50000x128_S800000x1_S800000x128_1_0_0_1_wf := rfl
private theorem rec_rowGather : gather_S50000x128_S800000x1_S800000x128_1_0_n_n_0_1_1128
    = rowGather 50000 800000 128 gather_S50000x128_S800000x1_S800000x128_1_0_n_n_0_1_1128_wf := rfl

/-- The zero scalar broadcast to any shape reads zero. -/
private theorem zeros_apply {T : Shape} (h : S_.BroadcastsInDim T ![]) (j : T.Idx) :
    broadcastInDim T ![] h (constant (F := Ideal) S_ .f32 0x00000000#32) j = (0 : EReal) := by
  rw [broadcastInDim_scalar_apply]; exact Ideal.ofBits_zero_f32

/-- The one scalar broadcast to any shape reads one. -/
private theorem ones_apply {T : Shape} (h : S_.BroadcastsInDim T ![]) (j : T.Idx) :
    broadcastInDim T ![] h (constant (F := Ideal) S_ .f32 0x3F800000#32) j = (1 : EReal) := by
  rw [broadcastInDim_scalar_apply]; exact one_f32

/-- A node's degree: the edges whose target counts for it, plus one. -/
theorem degK_apply (e : IVec S2x800000 32) (n : Fin 50000) :
    degK e (ix1 n) = (0 + ∑ k : Fin 800000, if tgtInt e k = (n.val : ℤ) then (1 : EReal) else 0) + 1 := by
  unfold degK
  rw [addf_apply, scatterAdd_ideal, rec_elemScatter, elemScatterAdd_apply, zeros_apply, ones_apply]
  refine congrArg (· + (1 : EReal)) (congrArg ((0 : EReal) + ·) (Finset.sum_congr rfl fun k _ => ?_))
  rw [colK_apply, tgtK_apply, ones_apply]
  rfl

/-- A negative word counts from the end, edge by edge. -/
private theorem wrapK_apply (v : IVec S800000 32) (k : Fin 800000) : wrapK v (ix1 k) = wrapWord (v (ix1 k)) := by
  unfold wrapK wrapWord
  rw [select_apply]
  show Scalar.select (IntOp.cmpi .slt (v (ix1 k)) (broadcastInDim S800000 ![] bcast_S_S800000 (constantI S_ 32 0#32) (ix1 k)))
      (IntOp.addi (v (ix1 k)) (broadcastInDim S800000 ![] bcast_S_S800000 (constantI S_ 32 50000#32) (ix1 k))) (v (ix1 k)) = _
  rw [broadcastInDim_scalar_apply, broadcastInDim_scalar_apply]
  rfl

/-- The neighbourhood sum at node `n`, channel `q`. -/
theorem aggK_apply (e : IVec S2x800000 32) (D : FVec Ideal S50000 .f32) (h : FVec Ideal S50000x128 .f32) (n : Fin 50000) (q : Fin 128) :
    aggK (srcK e) (tgtK e) D h (ix2 n q)
      = D (ix1 n) * (0 + ∑ k : Fin 800000, if tgtInt e k = (n.val : ℤ) then h (ix2 (srcRow e k) q) * D (ix1 (srcRow e k)) else 0)
        + (D (ix1 n) * D (ix1 n)) * h (ix2 n q) := by
  unfold aggK
  rw [addf_apply, mulf_apply, mulf_apply, rowsK_apply, rowsK_apply, mulf_apply]
  refine congrArg₂ (· + ·) (congrArg (D (ix1 n) * ·) ?_) rfl
  rw [scatterAdd_ideal, rec_rowScatter, rowScatterAdd_apply, zeros_apply]
  refine congrArg ((0 : EReal) + ·) (Finset.sum_congr rfl fun k _ => ?_)
  rw [colK_apply, tgtK_apply, extf_apply, rec_rowGather, rowGather_apply (by decide), truncf_apply, mulf_apply, rowsK_apply,
    colK_apply, wrapK_apply, srcK_apply]
  rfl

/-- Adding the bias row (the bias vector as one row) to every row. -/
theorem bias_eq (A : FVec Ideal S50000x128 .f32) (b : FVec Ideal S128 .f32) :
    addBias A (shapeCast _ b shapeCasts_S128_S1x128) = addVec A b := by
  funext i
  unfold addBias addVec
  refine congrArg (A i + ·) ?_
  exact shapeCast_apply b shapeCasts_S128_S1x128 (ix2 (0 : Fin 1) (i 1)) (ix1 (i 1)) (by
    rewrite [Shape.rowMajor_val_two, Shape.rowMajor_val_one]; show (i 1).val = 0 * 128 + (i 1).val; omega)

/-- Narrowing the float format is the identity on extended reals. -/
theorem trunc_eq (W : FVec Ideal S128x128 .f32) : (truncf .bf16 W bitsLt_bf16_f32 : FVec Ideal S128x128 .bf16) = W := rfl

end Cert.KernelIdeal.KerRead

end
-- ==== Proof.Algebra.lean ====
/-
  Sums over the extended reals that a degree-normalised neighbourhood sum needs.

  The extended reals are a commutative monoid under `+` and under `·`, but `·` distributes over `+` only with care
  (`x · (⊤ + ⊥)` against `x · ⊤ + x · ⊥` for negative `x`). A factor that is a finite NONNEGATIVE number does
  distribute, over every finite sum: that is the one law which lets a row's normalisation weight be applied once
  after summing the neighbours instead of edge by edge. The rest is bookkeeping: a sum over a list of edges
  followed by one self-loop per node splits into the edge part and the loop part, and the loop part at node `n`
  is the single term of node `n`.
-/
import Mathlib.Data.EReal.Operations
import Mathlib.Data.EReal.Inv
import Mathlib.Algebra.BigOperators.Fin
import Mathlib.Algebra.BigOperators.Ring.Finset

open scoped BigOperators

namespace Cert.Algebra

/-- A finite nonnegative factor distributes over a finite sum of extended reals. -/
theorem mul_sum_of_nonneg_ne_top {ι : Type*} (s : Finset ι) (f : ι → EReal) {x : EReal} (h0 : 0 ≤ x) (ht : x ≠ ⊤) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `a + b` positions is the sum over the first `a` plus the sum over the last `b`. -/
theorem sum_split {M : Type*} [AddCommMonoid M] (a b c : Nat) (h : a + b = c) (f : Fin c → M) :
    ∑ k : Fin c, f k = ∑ k : Fin a, f ⟨k.val, by omega⟩ + ∑ l : Fin b, f ⟨a + l.val, by omega⟩ := by
  subst h
  rw [Fin.sum_univ_add]
  rfl

/-- Counting with extended-real ones: the number of positions satisfying a predicate, as a real. -/
theorem sum_ite_one {ι : Type*} [Fintype ι] (p : ι → Prop) [DecidablePred p] :
    ∑ k : ι, (if p k then (1 : EReal) else 0) = (((Finset.univ.filter p).card : ℝ) : EReal) := by
  have h : ∀ k : ι, (if p k then (1 : EReal) else 0) = (((if p k then (1 : ℝ) else 0) : ℝ) : EReal) := fun k => by
    split <;> simp
  rw [Finset.sum_congr rfl fun k _ => h k, ← coe_sum, Finset.sum_boole]

/-- The loop part of a sum at node `n`: among the self-loops only node `n`'s lands on `n`. -/
theorem sum_loop {N : Nat} (n : Fin N) (f : Fin N → EReal) :
    (∑ l : Fin N, if (l.val : ℤ) = (n.val : ℤ) then f l else 0) = f n := by
  rw [Finset.sum_eq_single n]
  · simp
  · intro l _ hl; rw [if_neg]; intro h; exact hl (Fin.ext (by exact_mod_cast h))
  · intro h; exact absurd (Finset.mem_univ n) h

/-- THE AGGREGATION LAW. `t k` is edge `k`'s target (any integer), `s k` its source row, `tw k` its target row as
    a row (equal to `n` whenever the target is `n`), `D` the normalisation weights, `g` one channel of the node
    matrix. Weighting the summed neighbours once by `D n` and adding the self term `D n · D n · g n` equals summing,
    over the edges and the self-loops landing on `n`, the edge-weighted terms `g (src) · (D src · D tgt)`. -/
theorem agg_identity {E N : Nat} (t : Fin E → ℤ) (s tw : Fin E → Fin N) (D g : Fin N → EReal) (n : Fin N)
    (h0 : 0 ≤ D n) (ht : D n ≠ ⊤) (htw : ∀ k, t k = (n.val : ℤ) → tw k = n) :
    D n * (0 + ∑ k : Fin E, if t k = (n.val : ℤ) then g (s k) * D (s k) else 0) + (D n * D n) * g n
      = 0 + (∑ k : Fin E, (if t k = (n.val : ℤ) then g (s k) * (D (s k) * D (tw k)) else 0)
              + ∑ l : Fin N, if (l.val : ℤ) = (n.val : ℤ) then g l * (D l * D l) else 0) := by
  rw [zero_add, zero_add, mul_sum_of_nonneg_ne_top _ _ h0 ht, sum_loop n (fun l => g l * (D l * D l)),
    mul_comm (D n * D n) (g n)]
  congr 1
  refine Finset.sum_congr rfl fun k _ => ?_
  by_cases hk : t k = (n.val : ℤ)
  · rw [if_pos hk, if_pos hk, htw k hk, mul_comm (D n), mul_assoc]
  · rw [if_neg hk, if_neg hk, mul_zero]

/-- THE DEGREE LAW: counting the edges into `n` and adding one equals counting the edges and the self-loops into `n`. -/
theorem deg_identity {E N : Nat} (t : Fin E → ℤ) (n : Fin N) :
    (0 + ∑ k : Fin E, if t k = (n.val : ℤ) then (1 : EReal) else 0) + 1
      = 0 + (∑ k : Fin E, (if t k = (n.val : ℤ) then (1 : EReal) else 0)
              + ∑ l : Fin N, if (l.val : ℤ) = (n.val : ℤ) then (1 : EReal) else 0) := by
  rw [zero_add, zero_add, sum_loop n (fun _ => (1 : EReal))]

/-- The degree with its self-loop is a real number, at least one. -/
theorem deg_real {E N : Nat} (t : Fin E → ℤ) (n : Fin N) :
    ∃ r : ℝ, 1 ≤ r ∧ (0 + ∑ k : Fin E, if t k = (n.val : ℤ) then (1 : EReal) else 0) + 1 = (r : EReal) := by
  refine ⟨((Finset.univ.filter fun k : Fin E => t k = (n.val : ℤ)).card : ℝ) + 1, by
    have : (0 : ℝ) ≤ ((Finset.univ.filter fun k : Fin E => t k = (n.val : ℤ)).card : ℝ) := Nat.cast_nonneg _
    linarith, ?_⟩
  rw [zero_add, sum_ite_one, EReal.coe_add, EReal.coe_one]

end Cert.Algebra
-- ==== Proof.RefRead.lean ====
/-
  The reference's stages read at one index.

  The 850000 pairs are the 800000 edges followed by one self-loop per node, so every sum over the pairs that land
  on node `n` is the sum over the edges whose target counts for `n` plus the one self-loop term of `n`. Pair `k`
  of the edge part reads source row `srcRow e k` and carries the weight `dis[srcRow e k] · dis[tgtRow e k]`; self-loop
  `l` reads row `l` and carries `dis[l] · dis[l]`. The dense stages are the matrix product as a sum over the 128 input
  channels, the bias row added to every row, and the rectifier.
-/
import proofs.«140754_j23845658428197_2_alg».proof.Proof.RefSpec
import proofs.«140754_j23845658428197_2_alg».proof.Proof.HostIdx
import proofs.«140754_j23845658428197_2_alg».proof.Proof.Graph
import proofs.«140754_j23845658428197_2_alg».proof.Proof.Algebra
import proofs.«140754_j23845658428197_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefRead

open Cert.ReferenceIdeal Cert.ReferenceIdeal.Gen Cert.ReferenceIdeal.RefValue Cert.Graph Cert.Spec Cert.HostIdx
open Idealize.ShloMosaic Idealize.ShloMosaic.TcCoe Idealize.ShloMosaic.ValueIdx Idealize.SL.Sem

/-- The f32 word of one is the extended real one. -/
private theorem ofBits_one_f32 : Ideal.ofBits .f32 0x3F800000#32 = 1 := by
  simp [Ideal.ofBits, Ideal.ieee]
  rw [← EReal.coe_mul]
  norm_num

/-- The rank-1 accumulation's dimension numbers are the generic ones at the literal extents. -/
private theorem rec_elemScatter : scatter_S50000_S850000x1_S850000_n_0_0_1
    = elemScatter 50000 850000 scatter_S50000_S850000x1_S850000_n_0_0_1_wf := rfl

/-- The row accumulation's dimension numbers are the generic ones at the literal extents. -/
private theorem rec_rowScatter : scatter_S50000x128_S850000x1_S850000x128_1_0_0_1
    = rowScatter 50000 850000 128 scatter_S50000x128_S850000x1_S850000x128_1_0_0_1_wf := rfl

/-- A list as a column, read at a position. -/
private theorem colR_apply {α : Type} (v : S850000.Idx → α) (k : Fin 850000) : colR v (ix2 k (0 : Fin 1)) = v (ix1 k) := by
  unfold colR
  exact broadcastInDim_apply _ bcast_S850000_S850000x1_0 v _ (ix1 k) (fun a => match a with
    | ⟨0, _⟩ => by show k.val = if (850000 : Nat) = 1 then 0 else k.val; rw [if_neg (by decide)])

/-- The first 800000 targets are the edge list's row 1. -/
private theorem tgtR_left (e : IVec S2x800000 32) (k : Fin 800000) (hk : k.val < 850000) :
    tgtR e (ix1 ⟨k.val, hk⟩) = e (ix2 (1 : Fin 2) k) := by
  unfold tgtR
  rw [concatenate_pair_apply_left 0 _ _ concatenates_S800000_S50000_S850000_d0 (ix1 ⟨k.val, hk⟩) rfl (ix1 k)
    (fun b => by obtain rfl : b = 0 := Subsingleton.elim _ _; rfl)]
  rw [shapeCast_apply _ shapeCasts_S1x800000_S800000 (ix1 k) (ix2 (0 : Fin 1) k)
    (by rewrite [Shape.rowMajor_val_two, Shape.rowMajor_val_one]; show 0 * 800000 + k.val = k.val; omega)]
  exact extractStridedSlice_apply ![1, 0] e slices_S2x800000_S1x800000_1_0 (ix2 (0 : Fin 1) k) (ix2 (1 : Fin 2) k)
    (fun a => match a with
      | ⟨0, _⟩ => by show 1 = 1 + 0; omega
      | ⟨1, _⟩ => by show k.val = 0 + k.val; omega)

/-- The first 800000 sources are the edge list's row 0. -/
private theorem srcR_left (e : IVec S2x800000 32) (k : Fin 800000) (hk : k.val < 850000) :
    srcR e (ix1 ⟨k.val, hk⟩) = e (ix2 (0 : Fin 2) k) := by
  unfold srcR
  rw [concatenate_pair_apply_left 0 _ _ concatenates_S800000_S50000_S850000_d0 (ix1 ⟨k.val, hk⟩) rfl (ix1 k)
    (fun b => by obtain rfl : b = 0 := Subsingleton.elim _ _; rfl)]
  rw [shapeCast_apply _ shapeCasts_S1x800000_S800000 (ix1 k) (ix2 (0 : Fin 1) k)
    (by rewrite [Shape.rowMajor_val_two, Shape.rowMajor_val_one]; show 0 * 800000 + k.val = k.val; omega)]
  exact extractStridedSlice_apply ![0, 0] e slices_S2x800000_S1x800000_0_0 (ix2 (0 : Fin 1) k) (ix2 (0 : Fin 2) k)
    (fun a => match a with
      | ⟨0, _⟩ => by show 0 = 0 + 0; omega
      | ⟨1, _⟩ => by show k.val = 0 + k.val; omega)

/-- The last 50000 targets are the node numbers. -/
private theorem tgtR_right (e : IVec S2x800000 32) (l : Fin 50000) (hl : 800000 + l.val < 850000) :
    tgtR e (ix1 ⟨800000 + l.val, hl⟩) = BitVec.ofNat 32 l.val := by
  unfold tgtR
  rw [concatenate_pair_apply_right 0 _ _ concatenates_S800000_S50000_S850000_d0 (ix1 ⟨800000 + l.val, hl⟩) rfl rfl (ix1 l)
    (fun b hb => absurd (Subsingleton.elim _ _) hb)
    (by show l.val + 800000 = 800000 + l.val; omega)]
  rfl

/-- The last 50000 sources are the node numbers. -/
private theorem srcR_right (e : IVec S2x800000 32) (l : Fin 50000) (hl : 800000 + l.val < 850000) :
    srcR e (ix1 ⟨800000 + l.val, hl⟩) = BitVec.ofNat 32 l.val := by
  unfold srcR
  rw [concatenate_pair_apply_right 0 _ _ concatenates_S800000_S50000_S850000_d0 (ix1 ⟨800000 + l.val, hl⟩) rfl rfl (ix1 l)
    (fun b hb => absurd (Subsingleton.elim _ _) hb)
    (by show l.val + 800000 = 800000 + l.val; omega)]
  rfl

/-- A zero splat over the nodes reads zero. -/
private theorem zeroS50000 (i : S50000.Idx) :
    broadcastInDim S50000 ![] bcast_S_S50000 (constant (F := Ideal) S_ .f32 0x00000000#32) i = 0 := Ideal.ofBits_zero_f32

/-- A splat of ones over the pairs reads one. -/
private theorem oneS850000 (i : S850000.Idx) :
    broadcastInDim S850000 ![] bcast_S_S850000 (constant (F := Ideal) S_ .f32 0x3F800000#32) i = 1 := ofBits_one_f32

/-- At the extended reals the host's accumulating scatter is the exact one. -/
private theorem scatterAdd_ideal {s si u : Shape} {φ : FTy} {w : Nat} (d : ScatterDims s si u) (x : FVec Ideal s φ)
    (idx : IVec si w) (upd : FVec Ideal u φ) : Host.scatterAdd d x idx upd = Ideal.hostScatterAdd d x idx upd := rfl

/-- A node's degree: the edges whose target counts for it, plus its self-loop. -/
theorem degR_apply (e : IVec S2x800000 32) (n : Fin 50000) :
    degR e (ix1 n) = 0 + (∑ k : Fin 800000, (if tgtInt e k = (n.val : ℤ) then (1 : EReal) else 0)
      + ∑ l : Fin 50000, if (l.val : ℤ) = (n.val : ℤ) then (1 : EReal) else 0) := by
  unfold degR
  rw [scatterAdd_ideal, rec_elemScatter, elemScatterAdd_apply, zeroS50000,
    Algebra.sum_split 800000 50000 850000 rfl]
  refine congrArg₂ (· + ·) rfl (congrArg₂ (· + ·) ?_ ?_)
  · refine Finset.sum_congr rfl fun k _ => ?_
    rw [colR_apply, tgtR_left, oneS850000]
    rfl
  · refine Finset.sum_congr rfl fun l _ => ?_
    rw [colR_apply, tgtR_right, oneS850000, Graph.toInt_ofNat]

/-- The host's inverse square root at an index, at the extended reals. -/
private theorem hostRsqrt_apply {s : Shape} {φ : FTy} (x : FVec Ideal s φ) (i : s.Idx) :
    Host.rsqrt x i = Ideal.rsqrt (x i) := rfl

/-- A comparison at an index, at the extended reals. -/
private theorem cmpfI_apply {s : Shape} {φ : FTy} (p : CmpFPredicate) (a b : FVec Ideal s φ) (i : s.Idx) :
    cmpf (F := Ideal) p a b i = Ideal.cmp p (a i) (b i) := rfl

/-- A splat of ones over the nodes reads one. -/
private theorem oneS50000 (i : S50000.Idx) :
    broadcastInDim S50000 ![] bcast_S_S50000 (constant (F := Ideal) S_ .f32 0x3F800000#32) i = 1 := ofBits_one_f32

/-- The zero splat over the nodes, written through the identity, reads zero. -/
private theorem zeroS50000' (i : S50000.Idx) :
    broadcastInDim S50000 ![] bcast_S_S50000 (id (constant (F := Ideal) S_ .f32 0x00000000#32)) i = 0 :=
  Ideal.ofBits_zero_f32

/-- Where the degree is a real number at least one, the weight is its inverse square root. -/
theorem disR_apply (e : IVec S2x800000 32) (n : Fin 50000) (r : ℝ) (hr1 : 1 ≤ r) (hr : degR e (ix1 n) = (r : EReal)) :
    disR e (ix1 n) = Ideal.rsqrt (r : EReal) := by
  unfold disR
  rw [select_apply, cmpfI_apply, hostRsqrt_apply, maximumf_apply, zeroS50000, oneS50000, zeroS50000', hr]
  have hpos : (0 : EReal) < (r : EReal) := by exact_mod_cast (lt_of_lt_of_le one_pos hr1)
  have hc : Ideal.cmp .ogt (r : EReal) 0 = 1#1 := by
    show BitVec.ofBool (decide ((0 : EReal) < (r : EReal))) = 1#1
    rw [decide_eq_true hpos]; rfl
  rw [hc, select_one, max_eq_left]
  exact_mod_cast hr1

/-- The row gather's dimension numbers are the generic ones at the literal extents. -/
private theorem rec_rowGather : gather_S50000x128_S850000x1_S850000x128_1_0_n_n_0_1_1128
    = rowGather 50000 850000 128 gather_S50000x128_S850000x1_S850000x128_1_0_n_n_0_1_1128_wf := rfl

/-- The entry gather's dimension numbers are the generic ones at the literal extents. -/
private theorem rec_elemGather : gather_S50000_S850000x1_S850000_n_0_n_n_0_1_1
    = elemGather 50000 850000 gather_S50000_S850000x1_S850000_n_0_n_n_0_1_1_wf := rfl

/-- A zero splat over the node matrix reads zero. -/
private theorem zeroS50000x128 (i : S50000x128.Idx) :
    broadcastInDim S50000x128 ![] bcast_S_S50000x128 (constant (F := Ideal) S_ .f32 0x00000000#32) i = 0 :=
  Ideal.ofBits_zero_f32

/-- A weight gathered at pair `kk` through the wrapped words `v`: the weight of the row word `kk` reads. -/
private theorem gatherElem_apply (d : FVec Ideal S50000 .f32) (v : IVec S850000 32) (kk : Fin 850000) :
    Host.gather gather_S50000_S850000x1_S850000_n_0_n_n_0_1_1 d (colR (wrapR v)) (ix1 kk)
      = d (ix1 (readRow (v (ix1 kk)))) := by
  rw [rec_elemGather, elemGather_apply (by decide), colR_apply]
  rfl

/-- A row gathered at pair `kk` through the wrapped words `v`, at channel `q`: the row word `kk` reads. -/
private theorem gatherRow_apply (h : FVec Ideal S50000x128 .f32) (v : IVec S850000 32) (kk : Fin 850000) (q : Fin 128) :
    Host.gather gather_S50000x128_S850000x1_S850000x128_1_0_n_n_0_1_1128 h (colR (wrapR v)) (ix2 kk q)
      = h (ix2 (readRow (v (ix1 kk))) q) := by
  rw [rec_rowGather, rowGather_apply (by decide), colR_apply]
  rfl

/-- Pair `kk`'s weight: the weight at its source row times the weight at its target row. -/
private theorem normR_apply (e : IVec S2x800000 32) (kk : Fin 850000) :
    normR e (ix1 kk) = disR e (ix1 (readRow (srcR e (ix1 kk)))) * disR e (ix1 (readRow (tgtR e (ix1 kk)))) := by
  unfold normR
  rw [mulf_apply, gatherElem_apply, gatherElem_apply]

/-- A column spread over the 128 channels reads the column's entry. -/
private theorem spread_apply (w : S850000x1.Idx → EReal) (kk : Fin 850000) (q : Fin 128) :
    broadcastInDim S850000x128 ![0, 1] bcast_S850000x1_S850000x128_0_1 w (ix2 kk q) = w (ix2 kk (0 : Fin 1)) :=
  broadcastInDim_apply _ bcast_S850000x1_S850000x128_0_1 w _ (ix2 kk (0 : Fin 1)) (fun a => match a with
    | ⟨0, _⟩ => by show kk.val = if (850000 : Nat) = 1 then 0 else kk.val; rw [if_neg (by decide)]
    | ⟨1, _⟩ => by show 0 = if (1 : Nat) = 1 then 0 else q.val; rw [if_pos rfl])

/-- The neighbourhood sum at node `n`, channel `q`: the edge part and the self-loop part. -/
theorem aggR_apply (e : IVec S2x800000 32) (h : FVec Ideal S50000x128 .f32) (n : Fin 50000) (q : Fin 128) :
    aggR e h (ix2 n q) = 0 + (∑ k : Fin 800000, (if tgtInt e k = (n.val : ℤ)
          then h (ix2 (srcRow e k) q) * (disR e (ix1 (srcRow e k)) * disR e (ix1 (tgtRow e k))) else 0)
      + ∑ l : Fin 50000, if (l.val : ℤ) = (n.val : ℤ) then h (ix2 l q) * (disR e (ix1 l) * disR e (ix1 l)) else 0) := by
  unfold aggR
  rw [scatterAdd_ideal, rec_rowScatter, rowScatterAdd_apply, zeroS50000x128,
    Algebra.sum_split 800000 50000 850000 rfl]
  refine congrArg₂ (· + ·) rfl (congrArg₂ (· + ·) ?_ ?_)
  · refine Finset.sum_congr rfl fun k _ => ?_
    rw [colR_apply, mulf_apply, gatherRow_apply, spread_apply, colR_apply, normR_apply, srcR_left, tgtR_left]
    rfl
  · refine Finset.sum_congr rfl fun l _ => ?_
    rw [colR_apply, mulf_apply, gatherRow_apply, spread_apply, colR_apply, normR_apply, srcR_right, tgtR_right,
      Graph.toInt_ofNat, Graph.readRow_ofNat]

/-- The host's matrix product is the sum over the input channels. -/
theorem dot_eq (x : FVec Ideal S50000x128 .f32) (W : FVec Ideal S128x128 .f32) :
    Host.dotGeneral dot_S50000x128_S128x128_S50000x128_1_0_0_1_n_n none x W = mm x W := by
  funext i
  simp only [Host.dotGeneral]
  rw [Ideal.dotGeneral_apply,
    ← Equiv.sum_comp (ValueIdx.contrEquiv1 dot_S50000x128_S128x128_S50000x128_1_0_0_1_n_n 128 rfl rfl).symm]
  unfold mm
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i
      ((ValueIdx.contrEquiv1 dot_S50000x128_S128x128_S50000x128_1_0_0_1_n_n 128 rfl rfl).symm k) = ix2 (i 0) k :=
    funext fun a => Fin.ext (by
      match a with
      | ⟨0, _⟩ =>
        show (dot_S50000x128_S128x128_S50000x128_1_0_0_1_n_n.lhsIdx i _ 0).val = (i 0).val
        unfold DotDims.lhsIdx
        rw [dif_neg (show ¬(0 : Fin S50000x128.rank) ∈ dot_S50000x128_S128x128_S50000x128_1_0_0_1_n_n.lhsBatch by decide),
          dif_pos (show (0 : Fin S50000x128.rank) ∈ dot_S50000x128_S128x128_S50000x128_1_0_0_1_n_n.lhsNonContracting by decide)]
        rfl
      | ⟨1, _⟩ =>
        exact (dot_S50000x128_S128x128_S50000x128_1_0_0_1_n_n.lhsIdx_val_of_single rfl i _).trans hk)
  have er : dot_S50000x128_S128x128_S50000x128_1_0_0_1_n_n.rhsIdx i
      ((ValueIdx.contrEquiv1 dot_S50000x128_S128x128_S50000x128_1_0_0_1_n_n 128 rfl rfl).symm k) = ix2 k (i 1) :=
    funext fun a => Fin.ext (by
      match a with
      | ⟨0, _⟩ =>
        exact (dot_S50000x128_S128x128_S50000x128_1_0_0_1_n_n.rhsIdx_val_of_single rfl i _).trans hk
      | ⟨1, _⟩ =>
        show (dot_S50000x128_S128x128_S50000x128_1_0_0_1_n_n.rhsIdx i _ 1).val = (i 1).val
        unfold DotDims.rhsIdx
        rw [dif_neg (show ¬(1 : Fin S128x128.rank) ∈ dot_S50000x128_S128x128_S50000x128_1_0_0_1_n_n.rhsBatch by decide),
          dif_pos (show (1 : Fin S128x128.rank) ∈ dot_S50000x128_S128x128_S50000x128_1_0_0_1_n_n.rhsNonContracting by decide)]
        rfl)
  rw [el, er]
  rfl

/-- Adding the broadcast bias is adding the bias vector to every row. -/
theorem bias_eq (A : FVec Ideal S50000x128 .f32) (b : FVec Ideal S128 .f32) : addf A (biasR b) = addVec A b := by
  funext i
  show A i + biasR b i = A i + b (ix1 (i 1))
  congr 1
  unfold biasR
  rw [broadcastInDim_apply _ bcast_S1x128_S50000x128_0_1 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ (ix1 (i 1)) (fun a => match a with
    | ⟨0, _⟩ => by show (i 1).val = if (128 : Nat) = 1 then 0 else (i 1).val; rw [if_neg (by decide)])

/-- The host's rectifier is the rectifier. -/
theorem relu_eq (y : FVec Ideal S50000x128 .f32) : reluR y = relu y := by
  funext i
  show max (y i) (Ideal.ofBits .f32 0x00000000#32) = max (y i) 0
  rw [Ideal.ofBits_zero_f32]

end Cert.ReferenceIdeal.RefRead

end
-- ==== Proof.Bridge.lean ====
/-
  The two programs compute one function.

  Both count a node's incoming edges and its self-loop, so their degrees agree, are real numbers at least one,
  and the weights `dis = deg^(-1/2)` agree, are finite and nonnegative (the reference's guards `deg > 0` and
  `max(deg, 1)` are then vacuous). With finite nonnegative weights the kernel's neighbourhood sum — weight the
  sources, sum at the targets, weight the result, add the self term — is the reference's sum of edge-weighted
  terms over the edges and self-loops: a nonnegative finite factor distributes over the extended reals' sums.
  The dense stages agree entry by entry (a matrix product is the same sum of products however it is blocked and
  whatever format its operands travel in), so the three layers agree.
-/
import proofs.«140754_j23845658428197_2_alg».proof.Proof.KerRead
import proofs.«140754_j23845658428197_2_alg».proof.Proof.RefRead
import proofs.«140754_j23845658428197_2_alg».proof.Proof.Algebra
import proofs.«140754_j23845658428197_2_alg».proof.Proof.Graph
import proofs.«140754_j23845658428197_2_alg».proof.Proof.Spec

set_option maxRecDepth 16384

noncomputable section

open scoped BigOperators

namespace Cert.Bridge

open Cert.KernelIdeal.KerValue Cert.ReferenceIdeal.RefValue Cert.Graph Cert.Spec Cert.Algebra
open Cert.KernelIdeal (S50000 S50000x128 S2x800000 S128x128 S128)
open Idealize.ShloMosaic Idealize.ShloMosaic.ValueIdx

/-- The degrees agree. -/
theorem deg_eq (e : IVec S2x800000 32) (n : Fin 50000) : degK e (ix1 n) = degR e (ix1 n) := by
  rw [Cert.KernelIdeal.KerRead.degK_apply, Cert.ReferenceIdeal.RefRead.degR_apply]
  exact deg_identity (N := 50000) (tgtInt e) n

/-- A degree is a real number, at least one. -/
theorem deg_real' (e : IVec S2x800000 32) (n : Fin 50000) : ∃ r : ℝ, 1 ≤ r ∧ degR e (ix1 n) = (r : EReal) := by
  obtain ⟨r, h1, h⟩ := deg_real (N := 50000) (tgtInt e) n
  exact ⟨r, h1, by rw [← deg_eq, Cert.KernelIdeal.KerRead.degK_apply]; exact h⟩

/-- The host's inverse square root, read at an index. -/
theorem hostRsqrt_apply {s : Shape} {φ : FTy} (x : FVec Ideal s φ) (i : s.Idx) : Host.rsqrt x i = Ideal.rsqrt (x i) := rfl

/-- The weights agree, node by node. -/
theorem dis_eq_at (e : IVec S2x800000 32) (n : Fin 50000) : disK e (ix1 n) = disR e (ix1 n) := by
  obtain ⟨r, h1, h⟩ := deg_real' e n
  rw [Cert.ReferenceIdeal.RefRead.disR_apply e n r h1 h]
  unfold disK
  rw [hostRsqrt_apply, deg_eq, h]

/-- The weights agree. -/
theorem dis_eq (e : IVec S2x800000 32) : disK e = disR e := by
  funext i
  obtain ⟨n, rfl⟩ : ∃ n : Fin 50000, i = ix1 n := ⟨i 0, eq_ix1 i⟩
  exact dis_eq_at e n

/-- A weight is a finite nonnegative number. -/
theorem dis_nonneg (e : IVec S2x800000 32) (n : Fin 50000) : 0 ≤ disR e (ix1 n) ∧ disR e (ix1 n) ≠ ⊤ := by
  obtain ⟨r, h1, h⟩ := deg_real' e n
  rw [Cert.ReferenceIdeal.RefRead.disR_apply e n r h1 h, Ideal.rsqrt_coe, if_neg (by linarith), if_neg (by linarith)]
  exact ⟨by exact_mod_cast (inv_nonneg.mpr (Real.sqrt_nonneg r)), EReal.coe_ne_top _⟩

/-- The neighbourhood sums agree. -/
theorem agg_eq (e : IVec S2x800000 32) (h : FVec Ideal S50000x128 .f32) :
    aggK (srcK e) (tgtK e) (disK e) h = aggR e h := by
  funext i
  obtain ⟨n, q, rfl⟩ : ∃ (n : Fin 50000) (q : Fin 128), i = ix2 n q := ⟨i 0, i 1, eq_ix2 i⟩
  rw [dis_eq, Cert.KernelIdeal.KerRead.aggK_apply, Cert.ReferenceIdeal.RefRead.aggR_apply]
  obtain ⟨h0, ht⟩ := dis_nonneg e n
  exact agg_identity (tgtInt e) (srcRow e) (tgtRow e) (fun l => disR e (ix1 l)) (fun l => h (ix2 l q)) n h0 ht
    (fun k hk => tgtRow_of_tgtInt e k n hk)

/-- THE TWO RESULTS AGREE, as functions of the eight argument arrays. -/
theorem out_eq (X : FVec Ideal S50000x128 .f32) (e : IVec S2x800000 32) (W1 : FVec Ideal S128x128 .f32) (b1 : FVec Ideal S128 .f32)
    (W2 : FVec Ideal S128x128 .f32) (b2 : FVec Ideal S128 .f32) (W3 : FVec Ideal S128x128 .f32) (b3 : FVec Ideal S128 .f32) :
    kerOut X e W1 b1 W2 b2 W3 b3 = refOut X e W1 b1 W2 b2 W3 b3 := by
  unfold kerOut refOut layerR
  rw [Cert.KernelIdeal.KerRead.trunc_eq W1, Cert.KernelIdeal.KerRead.trunc_eq W2, Cert.KernelIdeal.KerRead.trunc_eq W3,
    Cert.KernelIdeal.KerRead.bias_eq, Cert.KernelIdeal.KerRead.bias_eq, Cert.KernelIdeal.KerRead.bias_eq,
    agg_eq, agg_eq, agg_eq,
    Cert.ReferenceIdeal.RefRead.bias_eq, Cert.ReferenceIdeal.RefRead.bias_eq, Cert.ReferenceIdeal.RefRead.bias_eq,
    Cert.ReferenceIdeal.RefRead.dot_eq, Cert.ReferenceIdeal.RefRead.dot_eq, Cert.ReferenceIdeal.RefRead.dot_eq,
    Cert.ReferenceIdeal.RefRead.relu_eq, Cert.ReferenceIdeal.RefRead.relu_eq]

end Cert.Bridge

end
-- ==== Proof.lean ====
/-
  A three-layer graph convolution over 50000 nodes, 128 channels and 800000 edges: the blocked-kernel program
  against the plain reference, equal as functions on the extended reals.

  Each layer is `Â · (x W) + b` with `Â` the adjacency matrix with self-loops, normalised symmetrically by
  `dis = deg^(-1/2)`. The reference lists the self-loops after the edges and weights every pair by
  `dis[src] · dis[tgt]`; the kernel program weights the sources, sums at the targets, weights the sums by
  `dis[tgt]` once, and adds the self-loop as the dense term `dis² · h`. The degrees are counts plus one, so the
  weights are finite and nonnegative, and a finite nonnegative factor distributes over sums of extended reals:
  the two neighbourhood sums are equal. The matrix products, bias additions and rectifiers are the same sums
  of products and the same pointwise operations, whatever the blocking and the operands' float formats.
  The frames: the two kernel programs run (their four dense stages among host stretches) with the arguments
  unchanged; the reference is a straight run of host operations.
-/
import proofs.«140754_j23845658428197_2_alg».proof.Defs
import proofs.«140754_j23845658428197_2_alg».proof.Proof.Gen.Kernel
import proofs.«140754_j23845658428197_2_alg».proof.Proof.Gen.Kernel.Skeleton
import proofs.«140754_j23845658428197_2_alg».proof.Proof.Gen.Kernel.Launch
import proofs.«140754_j23845658428197_2_alg».proof.Proof.Gen.Kernel.Points
import proofs.«140754_j23845658428197_2_alg».proof.Proof.Gen.Kernel.Frame
import proofs.«140754_j23845658428197_2_alg».proof.Proof.Gen.KernelIdeal
import proofs.«140754_j23845658428197_2_alg».proof.Proof.Gen.KernelIdeal.Skeleton
import proofs.«140754_j23845658428197_2_alg».proof.Proof.Gen.KernelIdeal.Launch
import proofs.«140754_j23845658428197_2_alg».proof.Proof.Gen.KernelIdeal.Points
import proofs.«140754_j23845658428197_2_alg».proof.Proof.Gen.KernelIdeal.Frame
import proofs.«140754_j23845658428197_2_alg».proof.Proof.Gen.ReferenceIdeal
import proofs.«140754_j23845658428197_2_alg».proof.Proof.Gen.Pre_finite_inputs
import proofs.«140754_j23845658428197_2_alg».proof.Proof.RefRun
import proofs.«140754_j23845658428197_2_alg».proof.Proof.RefSpec
import proofs.«140754_j23845658428197_2_alg».proof.Proof.KerRun
import proofs.«140754_j23845658428197_2_alg».proof.Proof.KerSpec
import proofs.«140754_j23845658428197_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : @Cert.frame_Kernel Cert.Kernel.Gen.facts Cert.Pre_finite_inputs.Gen.facts :=
  fun m ρ _ => Cert.Kernel.Gen.frame m ρ

/-- The idealized kernel program runs and leaves its arguments unchanged. -/
theorem frame_ki : @Cert.frame_KernelIdeal Cert.KernelIdeal.Gen.facts Cert.Pre_finite_inputs.Gen.facts :=
  fun m ρ _ => Cert.KernelIdeal.Gen.frame m ρ

/-- The reference runs and leaves its arguments unchanged: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories agreeing on the arguments both programs end with the same result: the kernel program's
    composed stages, which are the reference's. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KerValue.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KerValue.ker_value m ρ c), (h c).2⟩)
      (Cert.KernelIdeal.Run.run_value (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
